-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x8 : Shape := ⟨2, ![100000, 8]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_

variable [Facts]

def fn {F : FTy → Type} [FloatOps F] (main_arg0 : FVec F S100000x4 .f32) (main_arg1 : FVec F S100000x8 .f32) (main_arg2 : IVec S1 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  main_v8
-- ==== Kernel.lean ====
abbrev S100000x4 : Shape := ⟨2, ![100000, 4]⟩
abbrev S100000x8 : Shape := ⟨2, ![100000, 8]⟩
abbrev S1 : Shape := ⟨1, ![1]⟩
abbrev S100000x3 : Shape := ⟨2, ![100000, 3]⟩
abbrev S_ : Shape := ⟨0, ![]⟩
abbrev S100000x1 : Shape := ⟨2, ![100000, 1]⟩
abbrev S100000 : Shape := ⟨1, ![100000]⟩
abbrev S16777216 : Shape := ⟨1, ![16777216]⟩
abbrev S256x256x256 : Shape := ⟨3, ![256, 256, 256]⟩
abbrev S2x8x256x256 : Shape := ⟨4, ![2, 8, 256, 256]⟩
abbrev S256x8x256 : Shape := ⟨3, ![256, 8, 256]⟩
abbrev S4x256x256 : Shape := ⟨3, ![4, 256, 256]⟩
abbrev S1x8x256x256 : Shape := ⟨4, ![1, 8, 256, 256]⟩
abbrev S4x8x256 : Shape := ⟨3, ![4, 8, 256]⟩
abbrev S8x256x256 : Shape := ⟨3, ![8, 256, 256]⟩
abbrev S256x256 : Shape := ⟨2, ![256, 256]⟩
abbrev S4x256 : Shape := ⟨2, ![4, 256]⟩
abbrev S1x256x256 : Shape := ⟨3, ![1, 256, 256]⟩
abbrev S4x1x256 : Shape := ⟨3, ![4, 1, 256]⟩
abbrev S3x8x256x256 : Shape := ⟨4, ![3, 8, 256, 256]⟩
abbrev S3 : Shape := ⟨1, ![3]⟩

abbrev nBuf : Space → Nat
  | .hbm => 113
  | .vmem => 23
  | .smem => 0
  | _ => 0

abbrev bufTy : (tb : Table) → Fin (tcTables nBuf tb) → BufTy
  | .hbm, ⟨0, _⟩ => ⟨S100000x4, .f32⟩
  | .hbm, ⟨1, _⟩ => ⟨S100000x8, .f32⟩
  | .hbm, ⟨2, _⟩ => ⟨S1, .i32⟩
  | .hbm, ⟨3, _⟩ => ⟨S100000x3, .f32⟩
  | .hbm, ⟨4, _⟩ => ⟨S_, .f32⟩
  | .hbm, ⟨5, _⟩ => ⟨S100000x3, .f32⟩
  | .hbm, ⟨6, _⟩ => ⟨S100000x3, .f32⟩
  | .hbm, ⟨7, _⟩ => ⟨S100000x3, .f32⟩
  | .hbm, ⟨8, _⟩ => ⟨S100000x3, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S100000x3, .i32⟩
  | .hbm, ⟨13, _⟩ => ⟨S100000x3, .i32⟩
  | .hbm, ⟨14, _⟩ => ⟨S_, .i32⟩
  | .hbm, ⟨15, _⟩ => ⟨S100000x3, .i32⟩
  | .hbm, ⟨16, _⟩ => ⟨S100000x3, .i32⟩
  | .hbm, ⟨17, _⟩ => ⟨S100000x1, .f32⟩
  | .hbm, ⟨18, _⟩ => ⟨S100000, .f32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000, .i32⟩
  | .hbm, ⟨25, _⟩ => ⟨S100000, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000, .i32⟩
  | .hbm, ⟨37, _⟩ => ⟨S100000, .i32⟩
  | .hbm, ⟨38, _⟩ => ⟨S100000x1, .f32⟩
  | .hbm, ⟨39, _⟩ => ⟨S100000, .f32⟩
  | .hbm, ⟨40, _⟩ => ⟨S_, .f32⟩
  | .hbm, ⟨41, _⟩ => ⟨S16777216, .f32⟩
  | .hbm, ⟨42, _⟩ => ⟨S100000x1, .i32⟩
  | .hbm, ⟨43, _⟩ => ⟨S16777216, .f32⟩
  | .hbm, ⟨44, _⟩ => ⟨S256x256x256, .f32⟩
  | .hbm, ⟨45, _⟩ => ⟨S100000x1, .f32⟩
  | .hbm, ⟨46, _⟩ => ⟨S100000, .f32⟩
  | .hbm, ⟨47, _⟩ => ⟨S_, .f32⟩
  | .hbm, ⟨48, _⟩ => ⟨S16777216, .f32⟩
  | .hbm, ⟨49, _⟩ => ⟨S100000x1, .i32⟩
  | .hbm, ⟨50, _⟩ => ⟨S16777216, .f32⟩
  | .hbm, ⟨51, _⟩ => ⟨S256x256x256, .f32⟩
  | .hbm, ⟨52, _⟩ => ⟨S100000x1, .f32⟩
  | .hbm, ⟨53, _⟩ => ⟨S100000, .f32⟩
  | .hbm, ⟨54, _⟩ => ⟨S_, .f32⟩
  | .hbm, ⟨55, _⟩ => ⟨S16777216, .f32⟩
  | .hbm, ⟨56, _⟩ => ⟨S100000x1, .i32⟩
  | .hbm, ⟨57, _⟩ => ⟨S16777216, .f32⟩
  | .hbm, ⟨58, _⟩ => ⟨S256x256x256, .f32⟩
  | .hbm, ⟨59, _⟩ => ⟨S100000x1, .f32⟩
  | .hbm, ⟨60, _⟩ => ⟨S100000, .f32⟩
  | .hbm, ⟨61, _⟩ => ⟨S_, .f32⟩
  | .hbm, ⟨62, _⟩ => ⟨S16777216, .f32⟩
  | .hbm, ⟨63, _⟩ => ⟨S100000x1, .i32⟩
  | .hbm, ⟨64, _⟩ => ⟨S16777216, .f32⟩
  | .hbm, ⟨65, _⟩ => ⟨S256x256x256, .f32⟩
  | .hbm, ⟨66, _⟩ => ⟨S100000x1, .f32⟩
  | .hbm, ⟨67, _⟩ => ⟨S100000, .f32⟩
  | .hbm, ⟨68, _⟩ => ⟨S_, .f32⟩
  | .hbm, ⟨69, _⟩ => ⟨S16777216, .f32⟩
  | .hbm, ⟨70, _⟩ => ⟨S100000x1, .i32⟩
  | .hbm, ⟨71, _⟩ => ⟨S16777216, .f32⟩
  | .hbm, ⟨72, _⟩ => ⟨S256x256x256, .f32⟩
  | .hbm, ⟨73, _⟩ => ⟨S100000x1, .f32⟩
  | .hbm, ⟨74, _⟩ => ⟨S100000, .f32⟩
  | .hbm, ⟨75, _⟩ => ⟨S_, .f32⟩
  | .hbm, ⟨76, _⟩ => ⟨S16777216, .f32⟩
  | .hbm, ⟨77, _⟩ => ⟨S100000x1, .i32⟩
  | .hbm, ⟨78, _⟩ => ⟨S16777216, .f32⟩
  | .hbm, ⟨79, _⟩ => ⟨S256x256x256, .f32⟩
  | .hbm, ⟨80, _⟩ => ⟨S100000x1, .f32⟩
  | .hbm, ⟨81, _⟩ => ⟨S100000, .f32⟩
  | .hbm, ⟨82, _⟩ => ⟨S_, .f32⟩
  | .hbm, ⟨83, _⟩ => ⟨S16777216, .f32⟩
  | .hbm, ⟨84, _⟩ => ⟨S100000x1, .i32⟩
  | .hbm, ⟨85, _⟩ => ⟨S16777216, .f32⟩
  | .hbm, ⟨86, _⟩ => ⟨S256x256x256, .f32⟩
  | .hbm, ⟨87, _⟩ => ⟨S100000x1, .f32⟩
  | .hbm, ⟨88, _⟩ => ⟨S100000, .f32⟩
  | .hbm, ⟨89, _⟩ => ⟨S_, .f32⟩
  | .hbm, ⟨90, _⟩ => ⟨S16777216, .f32⟩
  | .hbm, ⟨91, _⟩ => ⟨S100000x1, .i32⟩
  | .hbm, ⟨92, _⟩ => ⟨S16777216, .f32⟩
  | .hbm, ⟨93, _⟩ => ⟨S256x256x256, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S16777216, .f32⟩
  | .hbm, ⟨98, _⟩ => ⟨S100000x1, .i32⟩
  | .hbm, ⟨99, _⟩ => ⟨S16777216, .f32⟩
  | .hbm, ⟨100, _⟩ => ⟨S256x256x256, .f32⟩
  | .hbm, ⟨101, _⟩ => ⟨S2x8x256x256, .f32⟩
  | .hbm, ⟨102, _⟩ => ⟨S256x8x256, .f32⟩
  | .hbm, ⟨103, _⟩ => ⟨S256x8x256, .f32⟩
  | .hbm, ⟨104, _⟩ => ⟨S_, .f32⟩
  | .hbm, ⟨105, _⟩ => ⟨S8x256x256, .f32⟩
  | .hbm, ⟨106, _⟩ => ⟨S1x8x256x256, .f32⟩
  | .hbm, ⟨107, _⟩ => ⟨S8x256x256, .f32⟩
  | .hbm, ⟨108, _⟩ => ⟨S1x8x256x256, .f32⟩
  | .hbm, ⟨109, _⟩ => ⟨S8x256x256, .f32⟩
  | .hbm, ⟨110, _⟩ => ⟨S1x8x256x256, .f32⟩
  | .hbm, ⟨111, _⟩ => ⟨S3x8x256x256, .f32⟩
  | .hbm, ⟨112, _⟩ => ⟨S3, .i32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .f32⟩
  | .local _ .vmem, ⟨5, _⟩ => ⟨S4x256x256, .f32⟩
  | .local _ .vmem, ⟨6, _⟩ => ⟨S4x256x256, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | .local _ .vmem, ⟨14, _⟩ => ⟨S4x256x256, .f32⟩
  | .local _ .vmem, ⟨15, _⟩ => ⟨S4x256x256, .f32⟩
  | .local _ .vmem, ⟨16, _⟩ => ⟨S4x256x256, .f32⟩
  | .local _ .vmem, ⟨17, _⟩ => ⟨S4x256x256, .f32⟩
  | .local _ .vmem, ⟨18, _⟩ => ⟨S1x8x256x256, .f32⟩
  | .local _ .vmem, ⟨19, _⟩ => ⟨S4x8x256, .f32⟩
  | .local _ .vmem, ⟨20, _⟩ => ⟨S4x8x256, .f32⟩
  | .local _ .vmem, ⟨21, _⟩ => ⟨S4x8x256, .f32⟩
  | .local _ .vmem, ⟨22, _⟩ => ⟨S4x8x256, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77_0 : Ref sig .tc := ⟨.hbm, 101, rfl⟩
abbrev main_v77_1 : Ref sig .tc := ⟨.hbm, 102, rfl⟩
abbrev main_v77_2 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x8x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S4x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  slices_S100000x4_S100000x3_0_0 : S100000x4.Slices ![0, 0] S100000x3
  bcast_S_S100000x3 : S_.BroadcastsInDim S100000x3 (![] : Fin 0 → Fin S100000x3.rank)
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  slices_S100000x8_S100000x1_0_0 : S100000x8.Slices ![0, 0] S100000x1
  bcast_S_S16777216 : S_.BroadcastsInDim S16777216 (![] : Fin 0 → Fin S16777216.rank)
  bcast_S100000_S100000x1_0 : S100000.BroadcastsInDim S100000x1 (![0] : Fin 1 → Fin S100000x1.rank)
  shapeCasts_S16777216_S256x256x256 : S16777216.ShapeCasts S256x256x256
  slices_S100000x8_S100000x1_0_1 : S100000x8.Slices ![0, 1] S100000x1
  slices_S100000x8_S100000x1_0_2 : S100000x8.Slices ![0, 2] S100000x1
  slices_S100000x8_S100000x1_0_3 : S100000x8.Slices ![0, 3] S100000x1
  slices_S100000x8_S100000x1_0_4 : S100000x8.Slices ![0, 4] S100000x1
  slices_S100000x8_S100000x1_0_5 : S100000x8.Slices ![0, 5] S100000x1
  slices_S100000x8_S100000x1_0_6 : S100000x8.Slices ![0, 6] S100000x1
  slices_S100000x8_S100000x1_0_7 : S100000x8.Slices ![0, 7] S100000x1
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  reduces_S4x256x256_S256x256 : S4x256x256.Reduces [0] S256x256
  reduces_S4x256x256_S4x256 : S4x256x256.Reduces [1] S4x256
  reduces_S4x256x256_S4x256_2 : S4x256x256.Reduces [2] S4x256
  shapeCasts_S256x256_S1x256x256 : S256x256.ShapeCasts S1x256x256
  concatenates_S1x256x256_S1x256x256_S1x256x256_S1x256x256_S1x256x256_S1x256x256_S1x256x256_S1x256x256_S8x256x256_d0 : Shape.Concatenates [S1x256x256, S1x256x256, S1x256x256, S1x256x256, S1x256x256, S1x256x256, S1x256x256, S1x256x256] S8x256x256 0
  shapeCasts_S4x256_S4x1x256 : S4x256.ShapeCasts S4x1x256
  concatenates_S4x1x256_S4x1x256_S4x1x256_S4x1x256_S4x1x256_S4x1x256_S4x1x256_S4x1x256_S4x8x256_d1 : Shape.Concatenates [S4x1x256, S4x1x256, S4x1x256, S4x1x256, S4x1x256, S4x1x256, S4x1x256, S4x1x256] S4x8x256 1
  inb_S4x8x256_S4x8x256_0_0_0 : ∀ a, (![0, 0, 0] : Fin 3 → Nat) a + S4x8x256.size a ≤ S4x8x256.size a
  h_S4x8x256 : 0 < S4x8x256.numel
  reducesTo_S2x8x256x256_S8x256x256_d0 : S2x8x256x256.ReducesTo [0] S8x256x256
  h_S_ : 0 < S_.numel
  bcast_S8x256x256_S1x8x256x256_1_2_3 : S8x256x256.BroadcastsInDim S1x8x256x256 (![1, 2, 3] : Fin 3 → Fin S1x8x256x256.rank)
  transposes_S256x8x256_S8x256x256_1_0_2 : S256x8x256.Transposes [1, 0, 2] S8x256x256
  concatenates_S1x8x256x256_S1x8x256x256_S1x8x256x256_S3x8x256x256_d0 : Shape.Concatenates [S1x8x256x256, S1x8x256x256, S1x8x256x256] S3x8x256x256 0
  concatenates_S1_S1_S1_S3_d0 : Shape.Concatenates [S1, S1, S1] S3 0
  scatter_S16777216_S100000x1_S100000_n_0_0_1_wf : ScatterDims.WF S16777216 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S256x256x256.size a
  hwx0_0 : ∀ i : grid0.Coords, EltTy.bits .f32 = 32 ∨ (Rect.block (s := S256x256x256) S4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S256x256x256.size a
  hwx0_1 : ∀ i : grid0.Coords, EltTy.bits .f32 = 32 ∨ (Rect.block (s := S256x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S256x256x256.size a
  hwx0_2 : ∀ i : grid0.Coords, EltTy.bits .f32 = 32 ∨ (Rect.block (s := S256x256x256) S4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S256x256x256.size a
  hwx0_3 : ∀ i : grid0.Coords, EltTy.bits .f32 = 32 ∨ (Rect.block (s := S256x256x256) S4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S256x256x256.size a
  hwx0_4 : ∀ i : grid0.Coords, EltTy.bits .f32 = 32 ∨ (Rect.block (s := S256x256x256) S4x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S256x256x256.size a
  hwx0_5 : ∀ i : grid0.Coords, EltTy.bits .f32 = 32 ∨ (Rect.block (s := S256x256x256) S4x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S256x256x256.size a
  hwx0_6 : ∀ i : grid0.Coords, EltTy.bits .f32 = 32 ∨ (Rect.block (s := S256x256x256) S4x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S256x256x256.size a
  hwx0_7 : ∀ i : grid0.Coords, EltTy.bits .f32 = 32 ∨ (Rect.block (s := S256x256x256) S4x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x256.size a ≤ S256x256x256.size a
  hwx0_8 : ∀ i : grid0.Coords, EltTy.bits .f32 = 32 ∨ (Rect.block (s := S256x256x256) S4x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8x256x256.size a ≤ S2x8x256x256.size a
  hwx0_9 : ∀ i : grid0.Coords, EltTy.bits .f32 = 32 ∨ (Rect.block (s := S2x8x256x256) S1x8x256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x8x256.size a ≤ S256x8x256.size a
  hwx0_10 : ∀ i : grid0.Coords, EltTy.bits .f32 = 32 ∨ (Rect.block (s := S256x8x256) S4x8x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x8x256.size a ≤ S256x8x256.size a
  hwx0_11 : ∀ i : grid0.Coords, EltTy.bits .f32 = 32 ∨ (Rect.block (s := S256x8x256) S4x8x256.size (cc0_transform_11 i) (hinb0_11 i)).WholeWords (EltTy.packing .f32)

variable [Facts₀]

def scatter_S16777216_S100000x1_S100000_n_0_0_1 : ScatterDims S16777216 S100000x1 S100000 where
  updateWindowDims := []
  insertedWindowDims := [0]
  scatterDimsToOperandDims := [0]
  indexVectorDim := 1
  wf := scatter_S16777216_S100000x1_S100000_n_0_0_1_wf

abbrev win0_0 : Pipeline.Window sig grid0 :=
  Pipeline.Window.ofSpec (Memref.whole main_v29) S4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S4x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v65) S4x256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v71) S4x256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v76) S4x256x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v77_0) S1x8x256x256.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v77_1) S4x8x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v77_2) S4x8x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x4 : Shape := ⟨2, ![100000, 4]⟩
abbrev S100000x8 : Shape := ⟨2, ![100000, 8]⟩
abbrev S1 : Shape := ⟨1, ![1]⟩
abbrev S100000x3 : Shape := ⟨2, ![100000, 3]⟩
abbrev S_ : Shape := ⟨0, ![]⟩
abbrev S100000x1 : Shape := ⟨2, ![100000, 1]⟩
abbrev S100000 : Shape := ⟨1, ![100000]⟩
abbrev S16777216x8 : Shape := ⟨2, ![16777216, 8]⟩
abbrev S16777216x1 : Shape := ⟨2, ![16777216, 1]⟩
abbrev S1x256x256x256x8 : Shape := ⟨5, ![1, 256, 256, 256, 8]⟩
abbrev S1x256x256x8 : Shape := ⟨4, ![1, 256, 256, 8]⟩
abbrev S1x8x256x256 : Shape := ⟨4, ![1, 8, 256, 256]⟩
abbrev S3x8x256x256 : Shape := ⟨4, ![3, 8, 256, 256]⟩
abbrev S3 : Shape := ⟨1, ![3]⟩

abbrev nBuf : Space → Nat
  | .hbm => 66
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x8, .f32⟩
  | .hbm, ⟨2, _⟩ => ⟨S1, .i32⟩
  | .hbm, ⟨3, _⟩ => ⟨S100000x3, .f32⟩
  | .hbm, ⟨4, _⟩ => ⟨S_, .f32⟩
  | .hbm, ⟨5, _⟩ => ⟨S100000x3, .f32⟩
  | .hbm, ⟨6, _⟩ => ⟨S100000x3, .f32⟩
  | .hbm, ⟨7, _⟩ => ⟨S100000x3, .f32⟩
  | .hbm, ⟨8, _⟩ => ⟨S100000x3, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S100000x3, .i32⟩
  | .hbm, ⟨13, _⟩ => ⟨S100000x3, .i32⟩
  | .hbm, ⟨14, _⟩ => ⟨S_, .i32⟩
  | .hbm, ⟨15, _⟩ => ⟨S100000x3, .i32⟩
  | .hbm, ⟨16, _⟩ => ⟨S100000x3, .i32⟩
  | .hbm, ⟨17, _⟩ => ⟨S100000x1, .f32⟩
  | .hbm, ⟨18, _⟩ => ⟨S100000, .f32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000, .i32⟩
  | .hbm, ⟨25, _⟩ => ⟨S100000, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000, .i32⟩
  | .hbm, ⟨37, _⟩ => ⟨S100000, .i32⟩
  | .hbm, ⟨38, _⟩ => ⟨S_, .f32⟩
  | .hbm, ⟨39, _⟩ => ⟨S16777216x8, .f32⟩
  | .hbm, ⟨40, _⟩ => ⟨S100000x1, .i32⟩
  | .hbm, ⟨41, _⟩ => ⟨S16777216x8, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S_, .f32⟩
  | .hbm, ⟨46, _⟩ => ⟨S16777216x1, .f32⟩
  | .hbm, ⟨47, _⟩ => ⟨S100000x1, .i32⟩
  | .hbm, ⟨48, _⟩ => ⟨S16777216x1, .f32⟩
  | .hbm, ⟨49, _⟩ => ⟨S_, .f32⟩
  | .hbm, ⟨50, _⟩ => ⟨S16777216x1, .f32⟩
  | .hbm, ⟨51, _⟩ => ⟨S16777216x1, .f32⟩
  | .hbm, ⟨52, _⟩ => ⟨S16777216x8, .f32⟩
  | .hbm, ⟨53, _⟩ => ⟨S16777216x8, .f32⟩
  | .hbm, ⟨54, _⟩ => ⟨S1x256x256x256x8, .f32⟩
  | .hbm, ⟨55, _⟩ => ⟨S_, .f32⟩
  | .hbm, ⟨56, _⟩ => ⟨S1x256x256x8, .f32⟩
  | .hbm, ⟨57, _⟩ => ⟨S1x8x256x256, .f32⟩
  | .hbm, ⟨58, _⟩ => ⟨S_, .f32⟩
  | .hbm, ⟨59, _⟩ => ⟨S1x256x256x8, .f32⟩
  | .hbm, ⟨60, _⟩ => ⟨S1x8x256x256, .f32⟩
  | .hbm, ⟨61, _⟩ => ⟨S_, .f32⟩
  | .hbm, ⟨62, _⟩ => ⟨S1x256x256x8, .f32⟩
  | .hbm, ⟨63, _⟩ => ⟨S1x8x256x256, .f32⟩
  | .hbm, ⟨64, _⟩ => ⟨S3x8x256x256, .f32⟩
  | .hbm, ⟨65, _⟩ => ⟨S3, .i32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  slices_S100000x4_S100000x3_0_0 : S100000x4.Slices ![0, 0] S100000x3
  bcast_S_S100000x3 : S_.BroadcastsInDim S100000x3 (![] : Fin 0 → Fin S100000x3.rank)
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  bcast_S_S16777216x8 : S_.BroadcastsInDim S16777216x8 (![] : Fin 0 → Fin S16777216x8.rank)
  bcast_S100000_S100000x1_0 : S100000.BroadcastsInDim S100000x1 (![0] : Fin 1 → Fin S100000x1.rank)
  slices_S100000x8_S100000x1_0_0 : S100000x8.Slices ![0, 0] S100000x1
  bcast_S_S100000x1 : S_.BroadcastsInDim S100000x1 (![] : Fin 0 → Fin S100000x1.rank)
  bcast_S_S16777216x1 : S_.BroadcastsInDim S16777216x1 (![] : Fin 0 → Fin S16777216x1.rank)
  bcast_S16777216x1_S16777216x8_0_1 : S16777216x1.BroadcastsInDim S16777216x8 (![0, 1] : Fin 2 → Fin S16777216x8.rank)
  shapeCasts_S16777216x8_S1x256x256x256x8 : S16777216x8.ShapeCasts S1x256x256x256x8
  reducesTo_S1x256x256x256x8_S1x256x256x8_d1 : S1x256x256x256x8.ReducesTo [1] S1x256x256x8
  h_S_ : 0 < S_.numel
  transposes_S1x256x256x8_S1x8x256x256_0_3_1_2 : S1x256x256x8.Transposes [0, 3, 1, 2] S1x8x256x256
  reducesTo_S1x256x256x256x8_S1x256x256x8_d2 : S1x256x256x256x8.ReducesTo [2] S1x256x256x8
  reducesTo_S1x256x256x256x8_S1x256x256x8_d3 : S1x256x256x256x8.ReducesTo [3] S1x256x256x8
  concatenates_S1x8x256x256_S1x8x256x256_S1x8x256x256_S3x8x256x256_d0 : Shape.Concatenates [S1x8x256x256, S1x8x256x256, S1x8x256x256] S3x8x256x256 0
  concatenates_S1_S1_S1_S3_d0 : Shape.Concatenates [S1, S1, S1] S3 0
  scatter_S16777216x8_S100000x1_S100000x8_1_0_0_1_wf : ScatterDims.WF S16777216x8 S100000x1 S100000x8 [1] [0] [0] 1
  scatter_S16777216x1_S100000x1_S100000x1_1_0_0_1_wf : ScatterDims.WF S16777216x1 S100000x1 S100000x1 [1] [0] [0] 1

variable [Facts₀]

def scatter_S16777216x8_S100000x1_S100000x8_1_0_0_1 : ScatterDims S16777216x8 S100000x1 S100000x8 where
  updateWindowDims := [1]
  insertedWindowDims := [0]
  scatterDimsToOperandDims := [0]
  indexVectorDim := 1
  wf := scatter_S16777216x8_S100000x1_S100000x8_1_0_0_1_wf
def scatter_S16777216x1_S100000x1_S100000x1_1_0_0_1 : ScatterDims S16777216x1 S100000x1 S100000x1 where
  updateWindowDims := [1]
  insertedWindowDims := [0]
  scatterDimsToOperandDims := [0]
  indexVectorDim := 1
  wf := scatter_S16777216x1_S100000x1_S100000x1_1_0_0_1_wf

class Facts : Prop extends Facts₀ where

variable [Facts]
-- ==== Proof.BitsKit.lean ====
/-
  The program around its one grid region, and what the proofs of the region's body are stated over.

  The program is host lines (the voxel index of every point, eight per-channel scatter sums and the scatter count,
  each reshaped to the 256 x 256 x 256 grid), ONE region over a 2 x 32 grid, and nine host lines after it (the maximum
  of the two per-core partial maxima, two transposes, the stacking of the three projections, the class label three
  times).  Here: the contents of every buffer when the region is entered, as a fold of the host lines before it over
  the launch memory; that the program is those lines, the region, and the later lines; that the later lines touch
  only what they may, allocate nothing and write no array of the region; that the three arguments are written by no
  line at all; a window's block of its array at a grid point; that an input window's buffer holds its block at
  every point; and the one condition the body branches on (the second grid coordinate is zero), which holds at the
  grid positions divisible by 32.
-/
import proofs.«156709_j35338990912022_2_alg».proof.Proof.Gen.Kernel.Launch
import proofs.«156709_j35338990912022_2_alg».proof.Proof.Gen.Kernel.Skeleton
import proofs.«156709_j35338990912022_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What every buffer of core `c` holds when the region is entered: the host lines before it, folded over the
    launch memory. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The host lines before the region never write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host lines before the region never write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host lines before the region never write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every position, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the program -/

/-- For any proof data whose arrays are the region-entry contents, a run that ends with every array of the region at
    what the proof data computes and every other buffer as the later lines leave it ends, in particular, with the
    three arguments as launched: none is an array of the region, and no line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The body's branch condition, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the positions divisible by 32: the first step of each core's half. -/
theorem hcond0_0 : ∀ t : Fin cfg0.N, cond0_0 (grid0.coords t) ↔ t.val % 32 = 0 :=
  (by decide +kernel : ∀ t : Fin grid0.N, cond0_0 (grid0.coords t) ↔ t.val % 32 = 0)

/-- No window is idle at any position. -/
theorem liveAt0 : ∀ (w : Fin 12) (t : Fin cfg0.N), cfg0.idle w (grid0.coords t) = false := by decide +kernel

/-! ## The staging memrefs the body is called with -/

/-- One staging buffer of each output window, through which its contents are stated. -/
abbrev VO0_9 : View sig .tc .vmem S1x8x256x256 .f32 := (Memref.whole cc0_stg9_0 : Memref sig .tc .vmem S1x8x256x256 .f32).view
abbrev VO0_10 : View sig .tc .vmem S4x8x256 .f32 := (Memref.whole cc0_stg10_0 : Memref sig .tc .vmem S4x8x256 .f32).view
abbrev VO0_11 : View sig .tc .vmem S4x8x256 .f32 := (Memref.whole cc0_stg11_0 : Memref sig .tc .vmem S4x8x256 .f32).view
abbrev ms0_0 (t : Fin cfg0.N) : Memref sig .tc .vmem S4x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x8x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x8x256 .f32 := win0_11.stage (cfg0.slots t 11)
abbrev hs0_11 (t : Fin cfg0.N) : (ms0_11 t).IsWhole := hstage0_11 ((cfg0.slots t 11).cast nbuf0_11)

/-- The region's invariant between points is the generator register alone: the kernel has no scratch. -/
theorem PhiA0_eq (c : Dev nD) :
    (Pipeline.ΦA spec0 c : sProp 𝕄) = iprop(BI.emp ∗ (∃ r, prngReg c r)) := by
  unfold Pipeline.ΦA; rw [scopedRest0_eq]

end Cert.Kernel.Hand

end
-- ==== Proof.BitsRunFirst.lean ====
/-
  One run of the region's body over its memory operations, at the first step of a core's half of the grid:
  twelve loads (the nine input blocks, the carried output block, and two loads of output blocks whose values are
  never used) and four whole-block stores.  The arithmetic stays folded in the named payloads.
-/
import proofs.«156709_j35338990912022_2_alg».proof.Proof.BitsKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST step of a core's half (the second grid coordinate is zero): it resets the carried block of
    per-core partial maxima to -inf, then takes its maximum with this step's eight per-channel tile maxima, and
    stores the two per-step projections whole.  On whole staging memrefs — the nine inputs' at their contents, the
    three outputs' at anything — the body runs to a continuation that holds the inputs' as they were and each
    output's buffer with its stores written; the stores (last first) are the witness the run finds. -/
noncomputable def kernelRun0_A (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) :
    Σ' (L9 : List (View.Piece (Elt F) S1x8x256x256 .f32)) (L10 : List (View.Piece (Elt F) S4x8x256 .f32)), { L11 : List (View.Piece (Elt F) S4x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__voxel_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__voxel_kernel_eq_skeleton]; unfold cc0__voxel_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.Kernel.Hand

end
-- ==== Proof.BitsRunLater.lean ====
/-
  One run of the region's body over its memory operations, at a later step of a core's half of the grid:
  twelve loads (the nine input blocks, the carried output block, and two loads of output blocks whose values are
  never used) and three whole-block stores.  The arithmetic stays folded in the named payloads.
-/
import proofs.«156709_j35338990912022_2_alg».proof.Proof.BitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LATER step of a core's half (the second grid coordinate is not zero): no reset; the carried block of
    per-core partial maxima is read at what the step before left (`xo9`) and stored back at its maximum with this
    step's eight per-channel tile maxima; the two per-step projections are stored whole.  The stores (last first) are
    the witness the run finds. -/
noncomputable def kernelRun0_B (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) :
    Σ' (L9 : List (View.Piece (Elt F) S1x8x256x256 .f32)) (L10 : List (View.Piece (Elt F) S4x8x256 .f32)), { L11 : List (View.Piece (Elt F) S4x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__voxel_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__voxel_kernel_eq_skeleton]; unfold cc0__voxel_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.Kernel.Hand

end
-- ==== Proof.BitsFrame.lean ====
/-
  The region's frame: what the three output buffers hold after the body at each grid position, the proof data of the
  pipeline, the body obligation at every position, the run of the whole program, and the frame claim.

  The grid is 2 x 32: position t is step t % 32 of core t / 32.  Outputs 10 and 11 (the per-step projections) are
  stored whole at every position and written back there.  Output 9 (a core's running maximum over its 32 steps) is one
  buffer kept across a core's steps: reset and written at step 0, read and written back into at each later step, and
  written back to its array only after step 31; so what it holds after position t is defined by recursion on t — at
  a first step the first-step case's stores, at a later step the later-step case's stores over what position t - 1 left.
-/
import proofs.«156709_j35338990912022_2_alg».proof.Proof.BitsRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover each output block -/

theorem cover0_A_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S1x8x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S1x8x256x256.size (by sl_kernel_rfl) y

/-- What the first-step case leaves in output window 9's buffer: its stores read back. -/
def out0_A_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S1x8x256x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

theorem cover0_A_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S4x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 S4x8x256.size (by sl_kernel_rfl) y

/-- What the first-step case leaves in output window 10's buffer: its stores read back. -/
def out0_A_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S4x8x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

theorem cover0_A_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S4x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 S4x8x256.size (by sl_kernel_rfl) y

/-- What the first-step case leaves in output window 11's buffer: its stores read back. -/
def out0_A_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S4x8x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)

theorem cover0_B_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S1x8x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1 S1x8x256x256.size (by sl_kernel_rfl) y

/-- What the later-step case leaves in output window 9's buffer: its stores read back. -/
def out0_B_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S1x8x256x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1)

theorem cover0_B_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S4x8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1 S4x8x256.size (by sl_kernel_rfl) y

/-- What the later-step case leaves in output window 10's buffer: its stores read back. -/
def out0_B_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S4x8x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1)

theorem cover0_B_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S4x8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1 S4x8x256.size (by sl_kernel_rfl) y

/-- What the later-step case leaves in output window 11's buffer: its stores read back. -/
def out0_B_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S4x8x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1)

/-! ## What the outputs hold after each position -/

/-- The three output buffers after the body at position `n` (window 9, window 10, window 11). -/
def outsAt0 (c : Dev nD) : (n : ℕ) → n < cfg0.N → Vec F S1x8x256x256 .f32 × Vec F S4x8x256 .f32 × Vec F S4x8x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 32 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1)

/-- At the first step of a core's half: the first-step case's contents. -/
theorem outsAt0_A (c : Dev nD) (t : Fin cfg0.N) (h0 : t.val % 32 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- At a later step: the later-step case's contents, over what the position before left in window 9's buffer. -/
theorem outsAt0_B (c : Dev nD) (t : Fin cfg0.N) (h0 : ¬t.val % 32 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at position `t` each input's buffer at its block and the
    outputs' at `outsAt0`; between positions nothing but the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- At a later step window 9's buffer holds what the body left at the position before: the position is not the
    first, and the buffer was not written back in between (that happens only after a core's last step). -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation -/

/-- What the body is called with at position `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any position: the inputs' buffers hold their blocks; the position is a first step or a later one; at a
    later step window 9's buffer holds what the position before left; so that case's run applies, and each output's
    stores, covering its block, read back as `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 64 := lt_of_lt_of_eq t.isLt (show cfg0.N = 64 from N_0)
  by_cases h0 : t.val % 32 = 0
  ·
    rw [outsAt0_A m c t h0]
    unfold out0_A_9 out0_A_10 out0_A_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _)
  ·
    rw [outsAt0_B m c t h0]
    simp only [before0_9_B m c t h0]
    unfold out0_B_9 out0_B_10 out0_B_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _)

/-- The library's body obligation, at every position. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the region at what the proof data computes and every other buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its three arguments as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.IdealKit.lean ====
/-
  The program around its one grid region, and what the proofs of the region's body are stated over.

  The program is host lines (the voxel index of every point, eight per-channel scatter sums and the scatter count,
  each reshaped to the 256 x 256 x 256 grid), ONE region over a 2 x 32 grid, and nine host lines after it (the maximum
  of the two per-core partial maxima, two transposes, the stacking of the three projections, the class label three
  times).  Here: the contents of every buffer when the region is entered, as a fold of the host lines before it over
  the launch memory; that the program is those lines, the region, and the later lines; that the later lines touch
  only what they may, allocate nothing and write no array of the region; that the three arguments are written by no
  line at all; a window's block of its array at a grid point; that an input window's buffer holds its block at
  every point; and the one condition the body branches on (the second grid coordinate is zero), which holds at the
  grid positions divisible by 32.
-/
import proofs.«156709_j35338990912022_2_alg».proof.Proof.Gen.KernelIdeal.Launch
import proofs.«156709_j35338990912022_2_alg».proof.Proof.Gen.KernelIdeal.Skeleton
import proofs.«156709_j35338990912022_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What every buffer of core `c` holds when the region is entered: the host lines before it, folded over the
    launch memory. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The host lines before the region never write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host lines before the region never write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host lines before the region never write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor do the lines after it, and it is no array of the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every position, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the program -/

/-- For any proof data whose arrays are the region-entry contents, a run that ends with every array of the region at
    what the proof data computes and every other buffer as the later lines leave it ends, in particular, with the
    three arguments as launched: none is an array of the region, and no line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The body's branch condition, from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the positions divisible by 32: the first step of each core's half. -/
theorem hcond0_0 : ∀ t : Fin cfg0.N, cond0_0 (grid0.coords t) ↔ t.val % 32 = 0 :=
  (by decide +kernel : ∀ t : Fin grid0.N, cond0_0 (grid0.coords t) ↔ t.val % 32 = 0)

/-- No window is idle at any position. -/
theorem liveAt0 : ∀ (w : Fin 12) (t : Fin cfg0.N), cfg0.idle w (grid0.coords t) = false := by decide +kernel

/-! ## The staging memrefs the body is called with -/

/-- One staging buffer of each output window, through which its contents are stated. -/
abbrev VO0_9 : View sig .tc .vmem S1x8x256x256 .f32 := (Memref.whole cc0_stg9_0 : Memref sig .tc .vmem S1x8x256x256 .f32).view
abbrev VO0_10 : View sig .tc .vmem S4x8x256 .f32 := (Memref.whole cc0_stg10_0 : Memref sig .tc .vmem S4x8x256 .f32).view
abbrev VO0_11 : View sig .tc .vmem S4x8x256 .f32 := (Memref.whole cc0_stg11_0 : Memref sig .tc .vmem S4x8x256 .f32).view
abbrev ms0_0 (t : Fin cfg0.N) : Memref sig .tc .vmem S4x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x8x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x8x256 .f32 := win0_11.stage (cfg0.slots t 11)
abbrev hs0_11 (t : Fin cfg0.N) : (ms0_11 t).IsWhole := hstage0_11 ((cfg0.slots t 11).cast nbuf0_11)

/-- The region's invariant between points is the generator register alone: the kernel has no scratch. -/
theorem PhiA0_eq (c : Dev nD) :
    (Pipeline.ΦA spec0 c : sProp 𝕄) = iprop(BI.emp ∗ (∃ r, prngReg c r)) := by
  unfold Pipeline.ΦA; rw [scopedRest0_eq]

end Cert.KernelIdeal.Hand

end
-- ==== Proof.IdealRunFirst.lean ====
/-
  One run of the region's body over its memory operations, at the first step of a core's half of the grid:
  twelve loads (the nine input blocks, the carried output block, and two loads of output blocks whose values are
  never used) and four whole-block stores.  The arithmetic stays folded in the named payloads.
-/
import proofs.«156709_j35338990912022_2_alg».proof.Proof.IdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST step of a core's half (the second grid coordinate is zero): it resets the carried block of
    per-core partial maxima to -inf, then takes its maximum with this step's eight per-channel tile maxima, and
    stores the two per-step projections whole.  On whole staging memrefs — the nine inputs' at their contents, the
    three outputs' at anything — the body runs to a continuation that holds the inputs' as they were and each
    output's buffer with its stores written; the stores (last first) are the witness the run finds. -/
noncomputable def kernelRun0_A (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) :
    Σ' (L9 : List (View.Piece (Elt F) S1x8x256x256 .f32)) (L10 : List (View.Piece (Elt F) S4x8x256 .f32)), { L11 : List (View.Piece (Elt F) S4x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__voxel_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__voxel_kernel_eq_skeleton]; unfold cc0__voxel_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.KernelIdeal.Hand

end
-- ==== Proof.IdealRunLater.lean ====
/-
  One run of the region's body over its memory operations, at a later step of a core's half of the grid:
  twelve loads (the nine input blocks, the carried output block, and two loads of output blocks whose values are
  never used) and three whole-block stores.  The arithmetic stays folded in the named payloads.
-/
import proofs.«156709_j35338990912022_2_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LATER step of a core's half (the second grid coordinate is not zero): no reset; the carried block of
    per-core partial maxima is read at what the step before left (`xo9`) and stored back at its maximum with this
    step's eight per-channel tile maxima; the two per-step projections are stored whole.  The stores (last first) are
    the witness the run finds. -/
noncomputable def kernelRun0_B (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) :
    Σ' (L9 : List (View.Piece (Elt F) S1x8x256x256 .f32)) (L10 : List (View.Piece (Elt F) S4x8x256 .f32)), { L11 : List (View.Piece (Elt F) S4x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0__voxel_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__voxel_kernel_eq_skeleton]; unfold cc0__voxel_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.KernelIdeal.Hand

end
-- ==== Proof.IdealFrame.lean ====
/-
  The region's frame: what the three output buffers hold after the body at each grid position, the proof data of the
  pipeline, the body obligation at every position, the run of the whole program, and the frame claim.

  The grid is 2 x 32: position t is step t % 32 of core t / 32.  Outputs 10 and 11 (the per-step projections) are
  stored whole at every position and written back there.  Output 9 (a core's running maximum over its 32 steps) is one
  buffer kept across a core's steps: reset and written at step 0, read and written back into at each later step, and
  written back to its array only after step 31; so what it holds after position t is defined by recursion on t — at
  a first step the first-step case's stores, at a later step the later-step case's stores over what position t - 1 left.
-/
import proofs.«156709_j35338990912022_2_alg».proof.Proof.IdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover each output block -/

theorem cover0_A_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S1x8x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S1x8x256x256.size (by sl_kernel_rfl) y

/-- What the first-step case leaves in output window 9's buffer: its stores read back. -/
def out0_A_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S1x8x256x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

theorem cover0_A_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S4x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 S4x8x256.size (by sl_kernel_rfl) y

/-- What the first-step case leaves in output window 10's buffer: its stores read back. -/
def out0_A_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S4x8x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

theorem cover0_A_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) (y : S4x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 S4x8x256.size (by sl_kernel_rfl) y

/-- What the first-step case leaves in output window 11's buffer: its stores read back. -/
def out0_A_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) : Vec F S4x8x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)

theorem cover0_B_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S1x8x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1 S1x8x256x256.size (by sl_kernel_rfl) y

/-- What the later-step case leaves in output window 9's buffer: its stores read back. -/
def out0_B_9 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S1x8x256x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).1)

theorem cover0_B_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S4x8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1 S4x8x256.size (by sl_kernel_rfl) y

/-- What the later-step case leaves in output window 10's buffer: its stores read back. -/
def out0_B_10 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S4x8x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.1)

theorem cover0_B_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) (y : S4x8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1 S4x8x256.size (by sl_kernel_rfl) y

/-- What the later-step case leaves in output window 11's buffer: its stores read back. -/
def out0_B_11 (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) : Vec F S4x8x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9).2.2.1)

/-! ## What the outputs hold after each position -/

/-- The three output buffers after the body at position `n` (window 9, window 10, window 11). -/
def outsAt0 (c : Dev nD) : (n : ℕ) → n < cfg0.N → Vec F S1x8x256x256 .f32 × Vec F S4x8x256 .f32 × Vec F S4x8x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 32 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1)

/-- At the first step of a core's half: the first-step case's contents. -/
theorem outsAt0_A (c : Dev nD) (t : Fin cfg0.N) (h0 : t.val % 32 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- At a later step: the later-step case's contents, over what the position before left in window 9's buffer. -/
theorem outsAt0_B (c : Dev nD) (t : Fin cfg0.N) (h0 : ¬t.val % 32 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at position `t` each input's buffer at its block and the
    outputs' at `outsAt0`; between positions nothing but the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- At a later step window 9's buffer holds what the body left at the position before: the position is not the
    first, and the buffer was not written back in between (that happens only after a core's last step). -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation -/

/-- What the body is called with at position `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any position: the inputs' buffers hold their blocks; the position is a first step or a later one; at a
    later step window 9's buffer holds what the position before left; so that case's run applies, and each output's
    stores, covering its block, read back as `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 64 := lt_of_lt_of_eq t.isLt (show cfg0.N = 64 from N_0)
  by_cases h0 : t.val % 32 = 0
  ·
    rw [outsAt0_A m c t h0]
    unfold out0_A_9 out0_A_10 out0_A_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _)
  ·
    rw [outsAt0_B m c t h0]
    simp only [before0_9_B m c t h0]
    unfold out0_B_9 out0_B_10 out0_B_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _)

/-- The library's body obligation, at every position. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the region at what the proof data computes and every other buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its three arguments as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.IdealStep.lean ====
/-
  What one step of the region's body leaves in its three output buffers, as functions of the nine loaded blocks.

  Every step loads the count block and the eight channel-sum blocks of its four x-planes.  From each channel it
  forms the quotient block (the sum block times the reciprocal of the count block raised to at least one) and takes
  its maxima along each of the three axes.  It stores: into output 10 the eight maxima along y, stacked on the channel
  axis (`tileW`); into output 11 the eight maxima along z (`tileZ`); into output 9 the elementwise maximum of the
  block it carries with the eight maxima along the four x-planes (`tileH`) — the carried block being the -inf block
  just stored at a core's first step, and what the step before left at a later one.
-/
import proofs.«156709_j35338990912022_2_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The eight channels' maxima along y of the quotient blocks, stacked on the channel axis. -/
def tileW (x0 x1 x2 x3 x4 x5 x6 x7 x8 : Vec F S4x256x256 .f32) : FVec F S4x8x256 .f32 :=
  k0_pay2 (k0_pay8 x8 x0) (k0_pay12 x8 x1) (k0_pay16 x8 x2) (k0_pay20 (k0_pay5 x8) (k0_pay18 x3))
    (k0_pay23 (k0_pay5 x8) x4) (k0_pay27 (k0_pay5 x8) x5) (k0_pay31 (k0_pay5 x8) x6) (k0_pay35 (k0_pay5 x8) x7)

/-- The eight channels' maxima along z of the quotient blocks, stacked on the channel axis. -/
def tileZ (x0 x1 x2 x3 x4 x5 x6 x7 x8 : Vec F S4x256x256 .f32) : FVec F S4x8x256 .f32 :=
  k0_pay3 (k0_pay9 x8 x0) (k0_pay13 x8 x1) (k0_pay17 x8 x2) (k0_pay21 (k0_pay5 x8) (k0_pay18 x3))
    (k0_pay24 (k0_pay5 x8) x4) (k0_pay28 (k0_pay5 x8) x5) (k0_pay32 (k0_pay5 x8) x6) (k0_pay36 (k0_pay5 x8) x7)

/-- The carried block `prev` raised to the eight channels' maxima along the four x-planes of the quotient blocks. -/
def tileH (x0 x1 x2 x3 x4 x5 x6 x7 x8 : Vec F S4x256x256 .f32) (prev : Vec F S1x8x256x256 .f32) : FVec F S1x8x256x256 .f32 :=
  k0_pay1 (k0_pay26 (k0_pay5 x8) x5) (k0_pay30 (k0_pay5 x8) x6) (k0_pay34 (k0_pay5 x8) x7)
    (k0_pay37 (k0_pay7 x8 x0)) (k0_pay38 (k0_pay11 x8 x1)) (k0_pay39 (k0_pay15 x8 x2))
    (k0_pay40 (k0_pay5 x8) (k0_pay18 x3)) (k0_pay41 (k0_pay5 x8) x4) prev

/-! ## Each case's stores, read back -/

theorem out0_A_9_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = tileH x0 x1 x2 x3 x4 x5 x6 x7 x8 (k0_pay4 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  try sl_unfold_words
  rw [View.canon_cons_unit_zero hz4, View.readCov_unit_zero _ hz4]
  simp only [View.readAt_eq_ld, harg2.read_unread, harg3.read_unread, harg4.read_unread, harg5.read_unread, harg6.read_unread, harg7.read_unread, harg8.read_unread, harg9.read_unread, harg10.read_unread, View.ld_unit_zero (S := S4x256x256) hz3]
  rfl

theorem out0_A_10_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = tileW x0 x1 x2 x3 x4 x5 x6 x7 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x256) hz3]
  rfl

theorem out0_A_11_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : cond0_0 i)
    (x0 x1 x2 x3 x4 x5 x6 x7 x8 : Vec F S4x256x256 .f32) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = tileZ x0 x1 x2 x3 x4 x5 x6 x7 x8 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x256) hz3]
  rfl

theorem out0_B_9_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 = tileH x0 x1 x2 x3 x4 x5 x6 x7 x8 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9)]
  unfold kernelRun0_B
  dsimp only
  try sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, View.ld_unit_zero (S := S4x256x256) hz3, harg11.read_unread, View.ld_unit_zero (S := S1x8x256x256) hz4]
  rfl

theorem out0_B_10_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 = tileW x0 x1 x2 x3 x4 x5 x6 x7 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x256) hz3]
  rfl

theorem out0_B_11_eq (c : Dev nD) (i : grid0.Coords) (arg2 : Memref sig .tc .vmem S4x256x256 .f32) (harg2 : arg2.IsWhole) (arg3 : Memref sig .tc .vmem S4x256x256 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x256x256 .f32) (harg10 : arg10.IsWhole) (arg11 : Memref sig .tc .vmem S1x8x256x256 .f32) (harg11 : arg11.IsWhole) (arg12 : Memref sig .tc .vmem S4x8x256 .f32) (harg12 : arg12.IsWhole) (arg13 : Memref sig .tc .vmem S4x8x256 .f32) (harg13 : arg13.IsWhole) (hc0 : ¬cond0_0 i)
    (x0 x1 x2 x3 x4 x5 x6 x7 x8 : Vec F S4x256x256 .f32) (xo9 : Vec F S1x8x256x256 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 = tileZ x0 x1 x2 x3 x4 x5 x6 x7 x8 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x256x256) hz3]
  rfl

end Cert.KernelIdeal.Hand

end
-- ==== Proof.Spec.lean ====
/-
  What both programs compute, as one function of the voxel numbers and the features, and the two laws that join
  their two arrangements of it.

  Every point e has a voxel number (a 32-bit word, read signed) and eight features.  A voxel n of the
  256 x 256 x 256 grid collects the points whose number is n: per channel the sum of their features, and their
  count (a sum of ones).  The voxel's value in a channel is the channel sum divided by the count raised to at least
  one, and the result stacks the three axis-wise maxima of these values.

  The quotient law: dividing by m = max(count, 1) and multiplying by the reciprocal 1 / m agree on ALL extended reals,
  because m is at least one and so never zero; no finiteness is needed.  The maxima: a fold of max from -inf over a
  finite family is characterised by its upper bounds (it lies under c exactly when every member does), so any two
  arrangements of one family (tile by tile, core by core, or all at once) have the same maximum.
-/
import Idealize.ShloMosaic.PureOps.Ideal
import Idealize.ShloMosaic.Lib.ValueIdx
import Idealize.ShloMosaic.Lib.IdealHost

noncomputable section

namespace Cert.Voxel

open Idealize.ShloMosaic Idealize.ShloMosaic.ValueIdx

/-! ## Maxima as folds -/

/-- The maximum of a finite family, as the fold of max from -inf that both programs compute. -/
def smax {ι : Type} [Fintype ι] (g : ι → EReal) : EReal := (Finset.univ : Finset ι).fold max ⊥ g

/-- It lies under `c` exactly when every member does. -/
theorem smax_le_iff {ι : Type} [Fintype ι] (g : ι → EReal) (c : EReal) : smax g ≤ c ↔ ∀ i, g i ≤ c := by
  unfold smax
  rw [Finset.fold_max_le]
  constructor
  · intro h i; exact h.2 i (Finset.mem_univ i)
  · intro h; exact ⟨bot_le, fun i _ => h i⟩

/-- Two extended reals with the same upper bounds are equal. -/
theorem eq_of_le_iff {a b : EReal} (h : ∀ c, a ≤ c ↔ b ≤ c) : a = b :=
  le_antisymm ((h b).mpr le_rfl) ((h a).mp le_rfl)

/-! ## Two literals -/

/-- The f32 word of negative infinity is the least extended real. -/
theorem ofBits_neg_inf : Ideal.ofBits .f32 0xFF800000#32 = ⊥ := by simp [Ideal.ofBits, Ideal.ieee]

/-- The count raised to at least the f32 word of one is the count raised to at least one. -/
theorem max_ofBits_one (n : EReal) : max n (Ideal.ofBits .f32 0x3F800000#32) = max n 1 := by rw [Ideal.ofBits_one_f32]

/-! ## The quotient -/

/-- A voxel's value: the channel sum over the count raised to at least one. -/
def quo (s n : EReal) : EReal := Ideal.div s (max n 1)

theorem max_one_ne_zero (n : EReal) : max n 1 ≠ 0 :=
  ne_of_gt (lt_of_lt_of_le zero_lt_one (le_max_right n 1))

/-- Multiplying by the reciprocal of `max n 1` is dividing by it, on every extended real. -/
theorem mul_div_one (s n : EReal) : s * Ideal.div 1 (max n 1) = quo s n := by
  unfold quo Ideal.div
  rw [if_neg (max_one_ne_zero n), if_neg (max_one_ne_zero n), one_mul]

/-! ## The voxel grid -/

/-- The sum a voxel collects: the zero word's value plus the sum of `u e` over the points `e` whose voxel number, read
    signed, is `n`. -/
def segsum (idx : IVec ⟨2, ![100000, 1]⟩ 32) (u : Fin 100000 → EReal) (n : Fin 16777216) : EReal :=
  Ideal.ofBits .f32 0x00000000#32
    + ∑ e ∈ Finset.univ.filter (fun e : Fin 100000 => (idx (ix2 e 0)).toInt = (n.val : Int)), u e

/-- The number of the voxel at `(x, y, z)`. -/
def cell (x y z : Fin 256) : Fin 16777216 :=
  ⟨(x.val * 256 + y.val) * 256 + z.val, by have := x.isLt; have := y.isLt; have := z.isLt; omega⟩

/-- The value of voxel `(x, y, z)` in channel `ch`. -/
def vox (idx : IVec ⟨2, ![100000, 1]⟩ 32) (feats : (⟨2, ![100000, 8]⟩ : Shape).Idx → EReal) (x y z : Fin 256) (ch : Fin 8) : EReal :=
  quo (segsum idx (fun e => feats (ix2 e ch)) (cell x y z))
      (segsum idx (fun _ => Ideal.ofBits .f32 0x3F800000#32) (cell x y z))

/-- The three projections: the maximum over x at `(y, z) = (a, b)`, over y at `(x, z) = (a, b)`, over z at `(x, y) = (a, b)`. -/
def view (idx : IVec ⟨2, ![100000, 1]⟩ 32) (feats : (⟨2, ![100000, 8]⟩ : Shape).Idx → EReal) (v : Fin 3) (ch : Fin 8) (a b : Fin 256) : EReal :=
  match v with
  | 0 => smax fun x : Fin 256 => vox idx feats x a b ch
  | 1 => smax fun y : Fin 256 => vox idx feats a y b ch
  | 2 => smax fun z : Fin 256 => vox idx feats a b z ch

/-- The result array [3, 8, 256, 256]. -/
def result (idx : IVec ⟨2, ![100000, 1]⟩ 32) (feats : (⟨2, ![100000, 8]⟩ : Shape).Idx → EReal) :
    (⟨4, ![3, 8, 256, 256]⟩ : Shape).Idx → EReal :=
  fun i => view idx feats ⟨(i 0).val, (i 0).isLt⟩ ⟨(i 1).val, (i 1).isLt⟩ ⟨(i 2).val, (i 2).isLt⟩ ⟨(i 3).val, (i 3).isLt⟩

theorem result_ix4 (idx : IVec ⟨2, ![100000, 1]⟩ 32) (feats : (⟨2, ![100000, 8]⟩ : Shape).Idx → EReal)
    (v : Fin 3) (ch : Fin 8) (a b : Fin 256) : result idx feats (ix4 v ch a b) = view idx feats v ch a b := rfl

end Cert.Voxel

end
-- ==== Proof.LibCat8.lean ====
/-
  Eight blocks of extent one on an axis, joined along that axis, read at an index: the piece whose number is the
  index's coordinate on the joined axis, at the index with that coordinate replaced by zero.  So if the eight pieces
  read, at that index, the eight members of a family, the join reads the member the coordinate names.  Stated for
  rank-3 blocks joined along the middle axis and along the leading axis, for any element type and any extents off
  the joined axis.  General; no program is imported.
-/
import Idealize.ShloMosaic.Lib.Pipeline.Value
import Idealize.ShloMosaic.Lib.ValueIdx

namespace Cert.LibCat8

open Idealize.ShloMosaic Idealize.ShloMosaic.ValueIdx

variable {α : Type}

/-- Eight `[n0, 1, n2]` blocks joined along the middle axis into `[n0, 8, n2]`: at `(a, ch, z)` the join reads
    piece `ch` at `(a, 0, z)`; with the pieces' values there named by a family `r`, it reads `r ch`. -/
theorem cat8_mid_apply {n0 n2 : Nat} (p0 p1 p2 p3 p4 p5 p6 p7 : (⟨3, ![n0, 1, n2]⟩ : Shape).Idx → α)
    (h : Shape.Concatenates [⟨3, ![n0, 1, n2]⟩, ⟨3, ![n0, 1, n2]⟩, ⟨3, ![n0, 1, n2]⟩, ⟨3, ![n0, 1, n2]⟩, ⟨3, ![n0, 1, n2]⟩, ⟨3, ![n0, 1, n2]⟩, ⟨3, ![n0, 1, n2]⟩, ⟨3, ![n0, 1, n2]⟩] ⟨3, ![n0, 8, n2]⟩ 1)
    (a : Fin n0) (ch : Fin 8) (z : Fin n2) (r : Fin 8 → α)
    (h0 : p0 (ix3 a 0 z) = r 0) (h1 : p1 (ix3 a 0 z) = r 1) (h2 : p2 (ix3 a 0 z) = r 2) (h3 : p3 (ix3 a 0 z) = r 3) (h4 : p4 (ix3 a 0 z) = r 4) (h5 : p5 (ix3 a 0 z) = r 5) (h6 : p6 (ix3 a 0 z) = r 6) (h7 : p7 (ix3 a 0 z) = r 7) :
    concatenate (⟨3, ![n0, 8, n2]⟩ : Shape) 1
        [⟨⟨3, ![n0, 1, n2]⟩, p0⟩, ⟨⟨3, ![n0, 1, n2]⟩, p1⟩, ⟨⟨3, ![n0, 1, n2]⟩, p2⟩, ⟨⟨3, ![n0, 1, n2]⟩, p3⟩, ⟨⟨3, ![n0, 1, n2]⟩, p4⟩, ⟨⟨3, ![n0, 1, n2]⟩, p5⟩, ⟨⟨3, ![n0, 1, n2]⟩, p6⟩, ⟨⟨3, ![n0, 1, n2]⟩, p7⟩] h (ix3 a ch z)
      = r ch := by
  have key := fun ch : Fin 8 => concatenate_apply_piece (t := ⟨3, ![n0, 8, n2]⟩) 1
    [⟨⟨3, ![n0, 1, n2]⟩, p0⟩, ⟨⟨3, ![n0, 1, n2]⟩, p1⟩, ⟨⟨3, ![n0, 1, n2]⟩, p2⟩, ⟨⟨3, ![n0, 1, n2]⟩, p3⟩, ⟨⟨3, ![n0, 1, n2]⟩, p4⟩, ⟨⟨3, ![n0, 1, n2]⟩, p5⟩, ⟨⟨3, ![n0, 1, n2]⟩, p6⟩, ⟨⟨3, ![n0, 1, n2]⟩, p7⟩] h (ix3 a ch z)
  match ch with
  | ⟨0, _⟩ =>
    exact (key ⟨0, _⟩ 0 (by show 0 < 8; omega) _ p0 rfl rfl 0 rfl (ix3 a 0 z)
      (fun b hb => match b, hb with | ⟨0, _⟩, _ => rfl | ⟨1, _⟩, hb => absurd rfl hb | ⟨2, _⟩, _ => rfl) rfl).trans h0
  | ⟨1, _⟩ =>
    exact (key ⟨1, _⟩ 1 (by show 1 < 8; omega) _ p1 rfl rfl 1 rfl (ix3 a 0 z)
      (fun b hb => match b, hb with | ⟨0, _⟩, _ => rfl | ⟨1, _⟩, hb => absurd rfl hb | ⟨2, _⟩, _ => rfl) rfl).trans h1
  | ⟨2, _⟩ =>
    exact (key ⟨2, _⟩ 2 (by show 2 < 8; omega) _ p2 rfl rfl 2 rfl (ix3 a 0 z)
      (fun b hb => match b, hb with | ⟨0, _⟩, _ => rfl | ⟨1, _⟩, hb => absurd rfl hb | ⟨2, _⟩, _ => rfl) rfl).trans h2
  | ⟨3, _⟩ =>
    exact (key ⟨3, _⟩ 3 (by show 3 < 8; omega) _ p3 rfl rfl 3 rfl (ix3 a 0 z)
      (fun b hb => match b, hb with | ⟨0, _⟩, _ => rfl | ⟨1, _⟩, hb => absurd rfl hb | ⟨2, _⟩, _ => rfl) rfl).trans h3
  | ⟨4, _⟩ =>
    exact (key ⟨4, _⟩ 4 (by show 4 < 8; omega) _ p4 rfl rfl 4 rfl (ix3 a 0 z)
      (fun b hb => match b, hb with | ⟨0, _⟩, _ => rfl | ⟨1, _⟩, hb => absurd rfl hb | ⟨2, _⟩, _ => rfl) rfl).trans h4
  | ⟨5, _⟩ =>
    exact (key ⟨5, _⟩ 5 (by show 5 < 8; omega) _ p5 rfl rfl 5 rfl (ix3 a 0 z)
      (fun b hb => match b, hb with | ⟨0, _⟩, _ => rfl | ⟨1, _⟩, hb => absurd rfl hb | ⟨2, _⟩, _ => rfl) rfl).trans h5
  | ⟨6, _⟩ =>
    exact (key ⟨6, _⟩ 6 (by show 6 < 8; omega) _ p6 rfl rfl 6 rfl (ix3 a 0 z)
      (fun b hb => match b, hb with | ⟨0, _⟩, _ => rfl | ⟨1, _⟩, hb => absurd rfl hb | ⟨2, _⟩, _ => rfl) rfl).trans h6
  | ⟨7, _⟩ =>
    exact (key ⟨7, _⟩ 7 (by show 7 < 8; omega) _ p7 rfl rfl 7 rfl (ix3 a 0 z)
      (fun b hb => match b, hb with | ⟨0, _⟩, _ => rfl | ⟨1, _⟩, hb => absurd rfl hb | ⟨2, _⟩, _ => rfl) rfl).trans h7

/-- Eight `[1, n1, n2]` blocks joined along the leading axis into `[8, n1, n2]`: at `(ch, y, z)` the join reads
    piece `ch` at `(0, y, z)`; with the pieces' values there named by a family `r`, it reads `r ch`. -/
theorem cat8_lead_apply {n1 n2 : Nat} (p0 p1 p2 p3 p4 p5 p6 p7 : (⟨3, ![1, n1, n2]⟩ : Shape).Idx → α)
    (h : Shape.Concatenates [⟨3, ![1, n1, n2]⟩, ⟨3, ![1, n1, n2]⟩, ⟨3, ![1, n1, n2]⟩, ⟨3, ![1, n1, n2]⟩, ⟨3, ![1, n1, n2]⟩, ⟨3, ![1, n1, n2]⟩, ⟨3, ![1, n1, n2]⟩, ⟨3, ![1, n1, n2]⟩] ⟨3, ![8, n1, n2]⟩ 0)
    (ch : Fin 8) (y : Fin n1) (z : Fin n2) (r : Fin 8 → α)
    (h0 : p0 (ix3 0 y z) = r 0) (h1 : p1 (ix3 0 y z) = r 1) (h2 : p2 (ix3 0 y z) = r 2) (h3 : p3 (ix3 0 y z) = r 3) (h4 : p4 (ix3 0 y z) = r 4) (h5 : p5 (ix3 0 y z) = r 5) (h6 : p6 (ix3 0 y z) = r 6) (h7 : p7 (ix3 0 y z) = r 7) :
    concatenate (⟨3, ![8, n1, n2]⟩ : Shape) 0
        [⟨⟨3, ![1, n1, n2]⟩, p0⟩, ⟨⟨3, ![1, n1, n2]⟩, p1⟩, ⟨⟨3, ![1, n1, n2]⟩, p2⟩, ⟨⟨3, ![1, n1, n2]⟩, p3⟩, ⟨⟨3, ![1, n1, n2]⟩, p4⟩, ⟨⟨3, ![1, n1, n2]⟩, p5⟩, ⟨⟨3, ![1, n1, n2]⟩, p6⟩, ⟨⟨3, ![1, n1, n2]⟩, p7⟩] h (ix3 ch y z)
      = r ch := by
  have key := fun ch : Fin 8 => concatenate_apply_piece (t := ⟨3, ![8, n1, n2]⟩) 0
    [⟨⟨3, ![1, n1, n2]⟩, p0⟩, ⟨⟨3, ![1, n1, n2]⟩, p1⟩, ⟨⟨3, ![1, n1, n2]⟩, p2⟩, ⟨⟨3, ![1, n1, n2]⟩, p3⟩, ⟨⟨3, ![1, n1, n2]⟩, p4⟩, ⟨⟨3, ![1, n1, n2]⟩, p5⟩, ⟨⟨3, ![1, n1, n2]⟩, p6⟩, ⟨⟨3, ![1, n1, n2]⟩, p7⟩] h (ix3 ch y z)
  match ch with
  | ⟨0, _⟩ =>
    exact (key ⟨0, _⟩ 0 (by show 0 < 8; omega) _ p0 rfl rfl 0 rfl (ix3 0 y z)
      (fun b hb => match b, hb with | ⟨0, _⟩, hb => absurd rfl hb | ⟨1, _⟩, _ => rfl | ⟨2, _⟩, _ => rfl) rfl).trans h0
  | ⟨1, _⟩ =>
    exact (key ⟨1, _⟩ 1 (by show 1 < 8; omega) _ p1 rfl rfl 1 rfl (ix3 0 y z)
      (fun b hb => match b, hb with | ⟨0, _⟩, hb => absurd rfl hb | ⟨1, _⟩, _ => rfl | ⟨2, _⟩, _ => rfl) rfl).trans h1
  | ⟨2, _⟩ =>
    exact (key ⟨2, _⟩ 2 (by show 2 < 8; omega) _ p2 rfl rfl 2 rfl (ix3 0 y z)
      (fun b hb => match b, hb with | ⟨0, _⟩, hb => absurd rfl hb | ⟨1, _⟩, _ => rfl | ⟨2, _⟩, _ => rfl) rfl).trans h2
  | ⟨3, _⟩ =>
    exact (key ⟨3, _⟩ 3 (by show 3 < 8; omega) _ p3 rfl rfl 3 rfl (ix3 0 y z)
      (fun b hb => match b, hb with | ⟨0, _⟩, hb => absurd rfl hb | ⟨1, _⟩, _ => rfl | ⟨2, _⟩, _ => rfl) rfl).trans h3
  | ⟨4, _⟩ =>
    exact (key ⟨4, _⟩ 4 (by show 4 < 8; omega) _ p4 rfl rfl 4 rfl (ix3 0 y z)
      (fun b hb => match b, hb with | ⟨0, _⟩, hb => absurd rfl hb | ⟨1, _⟩, _ => rfl | ⟨2, _⟩, _ => rfl) rfl).trans h4
  | ⟨5, _⟩ =>
    exact (key ⟨5, _⟩ 5 (by show 5 < 8; omega) _ p5 rfl rfl 5 rfl (ix3 0 y z)
      (fun b hb => match b, hb with | ⟨0, _⟩, hb => absurd rfl hb | ⟨1, _⟩, _ => rfl | ⟨2, _⟩, _ => rfl) rfl).trans h5
  | ⟨6, _⟩ =>
    exact (key ⟨6, _⟩ 6 (by show 6 < 8; omega) _ p6 rfl rfl 6 rfl (ix3 0 y z)
      (fun b hb => match b, hb with | ⟨0, _⟩, hb => absurd rfl hb | ⟨1, _⟩, _ => rfl | ⟨2, _⟩, _ => rfl) rfl).trans h6
  | ⟨7, _⟩ =>
    exact (key ⟨7, _⟩ 7 (by show 7 < 8; omega) _ p7 rfl rfl 7 rfl (ix3 0 y z)
      (fun b hb => match b, hb with | ⟨0, _⟩, hb => absurd rfl hb | ⟨1, _⟩, _ => rfl | ⟨2, _⟩, _ => rfl) rfl).trans h7

end Cert.LibCat8
-- ==== Proof.IdealTile.lean ====
/-
  The three tile functions of one step, read at an index.

  Every channel's quotient block is, element by element, the channel sum times the reciprocal of the count raised to
  at least one; on the extended reals that product is the quotient `quo` itself.  A maximum reduction over one axis
  of a [4, 256, 256] block, started from the word of -inf, is at each remaining index the fold of max from the least
  extended real over that axis's coordinates, that is `smax` of the family along the axis.  The eight per-channel
  results are reshaped to carry a unit channel axis and joined along it, so the joined block at channel `ch` reads the
  `ch`-th result.  Hence: `tileW` at (a, ch, z) is the maximum over y, `tileZ` at (a, ch, y) the maximum over z, and
  `tileH` at (0, ch, y, z) the carried value raised to the maximum over the four x-planes, each of channel `ch`'s
  quotients.  The block stored at a core's first step is -inf everywhere.
-/
import proofs.«156709_j35338990912022_2_alg».proof.Proof.IdealStep
import proofs.«156709_j35338990912022_2_alg».proof.Proof.Spec
import proofs.«156709_j35338990912022_2_alg».proof.Proof.LibCat8
import Idealize.ShloMosaic.PureOps.Ideal.Laws
import Idealize.ShloMosaic.Lib.Pipeline.Value

noncomputable section

namespace Cert.KernelIdeal.Hand

open Cert.KernelIdeal Cert.KernelIdeal.Gen Cert.Voxel Idealize.ShloMosaic Idealize.ShloMosaic.ValueIdx

/-! ## The quotient block at an index -/

/-- A channel's sum block (through the identity reshape) times the reciprocal block, at an index: the channel sum
    over the count raised to at least one.  The reciprocal block is one over the maximum of the count and one, both
    ones being the f32 word of one; multiplying by that reciprocal is dividing, since the divisor is never zero. -/
theorem quoBlock_apply (xc x8 : Vec Ideal S4x256x256 .f32) (h : S4x256x256.ShapeCasts S4x256x256) (a : Fin 4) (y z : Fin 256) :
    mulf (shapeCast S4x256x256 xc h) (k0_pay5 (F := Ideal) x8) (ix3 a y z) = quo (xc (ix3 a y z)) (x8 (ix3 a y z)) := by
  unfold k0_pay5
  rw [shapeCast_self, shapeCast_self]
  show xc (ix3 a y z) * Ideal.div (Ideal.ofBits .f32 0x3F800000#32) (max (x8 (ix3 a y z)) (Ideal.ofBits .f32 0x3F800000#32)) = _
  rw [Ideal.ofBits_one_f32, mul_div_one]

/-! ## A maximum over one axis of a [4, 256, 256] block at an index -/

/-- Over the four planes: at (y, z) the maximum over a of the block at (a, y, z). -/
theorem maxX_apply (v : FVec Ideal S4x256x256 .f32) (y z : Fin 256) :
    multiReduction .maximumf [0] S256x256 v 0xFF800000#32 reduces_S4x256x256_S256x256 (.inl rfl) rfl (ix2 y z)
      = smax fun a : Fin 4 => v (ix3 a y z) := by
  refine (Ideal.multiReduction_maximumf_single v _ _ (.inl rfl) rfl (ix2 y z)).trans ?_
  unfold smax
  show (Finset.univ : Finset (Fin 4)).fold max (Ideal.ofBits .f32 0xFF800000#32) _ = _
  rw [ofBits_neg_inf]
  refine congrArg (fun g : Fin 4 → EReal => Finset.fold max ⊥ g Finset.univ) ?_
  funext a
  refine congrArg v ?_
  funext d
  match d with
  | ⟨0, _⟩ => exact Fin.ext rfl
  | ⟨1, _⟩ => exact Fin.ext rfl
  | ⟨2, _⟩ => exact Fin.ext rfl

/-- Over the rows: at (a, z) the maximum over y of the block at (a, y, z). -/
theorem maxY_apply (v : FVec Ideal S4x256x256 .f32) (a : Fin 4) (z : Fin 256) :
    multiReduction .maximumf [1] S4x256 v 0xFF800000#32 reduces_S4x256x256_S4x256 (.inl rfl) rfl (ix2 a z)
      = smax fun y : Fin 256 => v (ix3 a y z) := by
  refine (Ideal.multiReduction_maximumf_single v _ _ (.inl rfl) rfl (ix2 a z)).trans ?_
  unfold smax
  show (Finset.univ : Finset (Fin 256)).fold max (Ideal.ofBits .f32 0xFF800000#32) _ = _
  rw [ofBits_neg_inf]
  refine congrArg (fun g : Fin 256 → EReal => Finset.fold max ⊥ g Finset.univ) ?_
  funext y
  refine congrArg v ?_
  funext d
  match d with
  | ⟨0, _⟩ => exact Fin.ext rfl
  | ⟨1, _⟩ => exact Fin.ext rfl
  | ⟨2, _⟩ => exact Fin.ext rfl

/-- Over the columns: at (a, y) the maximum over z of the block at (a, y, z). -/
theorem maxZ_apply (v : FVec Ideal S4x256x256 .f32) (a : Fin 4) (y : Fin 256) :
    multiReduction .maximumf [2] S4x256 v 0xFF800000#32 reduces_S4x256x256_S4x256_2 (.inl rfl) rfl (ix2 a y)
      = smax fun z : Fin 256 => v (ix3 a y z) := by
  refine (Ideal.multiReduction_maximumf_single v _ _ (.inl rfl) rfl (ix2 a y)).trans ?_
  unfold smax
  show (Finset.univ : Finset (Fin 256)).fold max (Ideal.ofBits .f32 0xFF800000#32) _ = _
  rw [ofBits_neg_inf]
  refine congrArg (fun g : Fin 256 → EReal => Finset.fold max ⊥ g Finset.univ) ?_
  funext z
  refine congrArg v ?_
  funext d
  match d with
  | ⟨0, _⟩ => exact Fin.ext rfl
  | ⟨1, _⟩ => exact Fin.ext rfl
  | ⟨2, _⟩ => exact Fin.ext rfl

/-! ## The same of a block that reads as quotients -/

/-- Over the four planes, of a block whose elements are the quotients. -/
theorem maxX_quo (Q : FVec Ideal S4x256x256 .f32) (xc x8 : Vec Ideal S4x256x256 .f32)
    (hQ : ∀ (a : Fin 4) (y z : Fin 256), Q (ix3 a y z) = quo (xc (ix3 a y z)) (x8 (ix3 a y z))) (y z : Fin 256) :
    multiReduction .maximumf [0] S256x256 Q 0xFF800000#32 reduces_S4x256x256_S256x256 (.inl rfl) rfl (ix2 y z)
      = smax fun a : Fin 4 => quo (xc (ix3 a y z)) (x8 (ix3 a y z)) :=
  (maxX_apply Q y z).trans (congrArg smax (funext fun a => hQ a y z))

/-- Over the rows, of a block whose elements are the quotients. -/
theorem maxY_quo (Q : FVec Ideal S4x256x256 .f32) (xc x8 : Vec Ideal S4x256x256 .f32)
    (hQ : ∀ (a : Fin 4) (y z : Fin 256), Q (ix3 a y z) = quo (xc (ix3 a y z)) (x8 (ix3 a y z))) (a : Fin 4) (z : Fin 256) :
    multiReduction .maximumf [1] S4x256 Q 0xFF800000#32 reduces_S4x256x256_S4x256 (.inl rfl) rfl (ix2 a z)
      = smax fun y : Fin 256 => quo (xc (ix3 a y z)) (x8 (ix3 a y z)) :=
  (maxY_apply Q a z).trans (congrArg smax (funext fun y => hQ a y z))

/-- Over the columns, of a block whose elements are the quotients. -/
theorem maxZ_quo (Q : FVec Ideal S4x256x256 .f32) (xc x8 : Vec Ideal S4x256x256 .f32)
    (hQ : ∀ (a : Fin 4) (y z : Fin 256), Q (ix3 a y z) = quo (xc (ix3 a y z)) (x8 (ix3 a y z))) (a : Fin 4) (y : Fin 256) :
    multiReduction .maximumf [2] S4x256 Q 0xFF800000#32 reduces_S4x256x256_S4x256_2 (.inl rfl) rfl (ix2 a y)
      = smax fun z : Fin 256 => quo (xc (ix3 a y z)) (x8 (ix3 a y z)) :=
  (maxZ_apply Q a y).trans (congrArg smax (funext fun z => hQ a y z))

/-! ## The reshapes at an index: equal row-major positions -/

/-- [4, 256] viewed as [4, 1, 256]: (a, 0, z) reads (a, z). -/
theorem cast_mid_apply (v : FVec Ideal S4x256 .f32) (a : Fin 4) (z : Fin 256) :
    shapeCast S4x1x256 v shapeCasts_S4x256_S4x1x256 (ix3 a 0 z) = v (ix2 a z) := by
  refine shapeCast_apply v _ (ix3 a 0 z) (ix2 a z) ?_
  rw [Shape.rowMajor_val_two, Shape.rowMajor_val_three]
  show a.val * 256 + z.val = (a.val * 1 + 0) * 256 + z.val
  omega

/-- [256, 256] viewed as [1, 256, 256]: (0, y, z) reads (y, z). -/
theorem cast_lead_apply (v : FVec Ideal S256x256 .f32) (y z : Fin 256) :
    shapeCast S1x256x256 v shapeCasts_S256x256_S1x256x256 (ix3 0 y z) = v (ix2 y z) := by
  refine shapeCast_apply v _ (ix3 0 y z) (ix2 y z) ?_
  rw [Shape.rowMajor_val_two, Shape.rowMajor_val_three]
  show y.val * 256 + z.val = (0 * 256 + y.val) * 256 + z.val
  omega

/-- [1, 8, 256, 256] viewed as [8, 256, 256]: (ch, y, z) reads (0, ch, y, z). -/
theorem cast_drop_apply (v : FVec Ideal S1x8x256x256 .f32) (ch : Fin 8) (y z : Fin 256) :
    shapeCast S8x256x256 v shapeCasts_S1x8x256x256_S8x256x256 (ix3 ch y z) = v (ix4 0 ch y z) := by
  refine shapeCast_apply v _ (ix3 ch y z) (ix4 0 ch y z) ?_
  rw [Shape.rowMajor_val_three, Shape.rowMajor_val_four]
  show ((0 * 8 + ch.val) * 256 + y.val) * 256 + z.val = (ch.val * 256 + y.val) * 256 + z.val
  omega

/-- [8, 256, 256] viewed as [1, 8, 256, 256]: (0, ch, y, z) reads (ch, y, z). -/
theorem cast_add_apply (v : FVec Ideal S8x256x256 .f32) (ch : Fin 8) (y z : Fin 256) :
    shapeCast S1x8x256x256 v shapeCasts_S8x256x256_S1x8x256x256 (ix4 0 ch y z) = v (ix3 ch y z) := by
  refine shapeCast_apply v _ (ix4 0 ch y z) (ix3 ch y z) ?_
  rw [Shape.rowMajor_val_three, Shape.rowMajor_val_four]
  show (ch.val * 256 + y.val) * 256 + z.val = ((0 * 8 + ch.val) * 256 + y.val) * 256 + z.val
  omega

/-! ## The block a core's first step stores -/

/-- The reshaped splat of the f32 word of -inf is the least extended real at every index. -/
theorem pay4_apply (i : S1x8x256x256.Idx) : k0_pay4 (F := Ideal) i = ⊥ := by
  unfold k0_pay4
  unfold shapeCast
  show Ideal.ofBits .f32 0xFF800000#32 = ⊥
  exact ofBits_neg_inf

/-! ## The three tile functions at an index

Each unfolds to the join of eight reshaped maxima.  The join at channel `ch` reads the `ch`-th member of the family of
per-channel maxima once each piece is shown to read its member: the reshape reads the maximum at the index without
the unit axis, and the maximum is of that channel's quotient block. -/

theorem tileW_apply (xs : Fin 8 → Vec Ideal S4x256x256 .f32) (x8 : Vec Ideal S4x256x256 .f32) (a : Fin 4) (ch : Fin 8) (z : Fin 256) :
    tileW (F := Ideal) (xs 0) (xs 1) (xs 2) (xs 3) (xs 4) (xs 5) (xs 6) (xs 7) x8 (ix3 a ch z)
      = smax fun y : Fin 256 => quo (xs ch (ix3 a y z)) (x8 (ix3 a y z)) := by
  unfold tileW k0_pay2
  refine Cert.LibCat8.cat8_mid_apply _ _ _ _ _ _ _ _ _ a ch z
    (fun ch => smax fun y : Fin 256 => quo (xs ch (ix3 a y z)) (x8 (ix3 a y z))) ?_ ?_ ?_ ?_ ?_ ?_ ?_ ?_
  · exact (cast_mid_apply _ a z).trans (maxY_quo _ (xs 0) x8 (fun a y z => quoBlock_apply (xs 0) x8 _ a y z) a z)
  · exact (cast_mid_apply _ a z).trans (maxY_quo _ (xs 1) x8 (fun a y z => quoBlock_apply (xs 1) x8 _ a y z) a z)
  · exact (cast_mid_apply _ a z).trans (maxY_quo _ (xs 2) x8 (fun a y z => quoBlock_apply (xs 2) x8 _ a y z) a z)
  · exact (cast_mid_apply _ a z).trans (maxY_quo _ (xs 3) x8 (fun a y z => quoBlock_apply (xs 3) x8 _ a y z) a z)
  · exact (cast_mid_apply _ a z).trans (maxY_quo _ (xs 4) x8 (fun a y z => quoBlock_apply (xs 4) x8 _ a y z) a z)
  · exact (cast_mid_apply _ a z).trans (maxY_quo _ (xs 5) x8 (fun a y z => quoBlock_apply (xs 5) x8 _ a y z) a z)
  · exact (cast_mid_apply _ a z).trans (maxY_quo _ (xs 6) x8 (fun a y z => quoBlock_apply (xs 6) x8 _ a y z) a z)
  · exact (cast_mid_apply _ a z).trans (maxY_quo _ (xs 7) x8 (fun a y z => quoBlock_apply (xs 7) x8 _ a y z) a z)

theorem tileZ_apply (xs : Fin 8 → Vec Ideal S4x256x256 .f32) (x8 : Vec Ideal S4x256x256 .f32) (a : Fin 4) (ch : Fin 8) (y : Fin 256) :
    tileZ (F := Ideal) (xs 0) (xs 1) (xs 2) (xs 3) (xs 4) (xs 5) (xs 6) (xs 7) x8 (ix3 a ch y)
      = smax fun z : Fin 256 => quo (xs ch (ix3 a y z)) (x8 (ix3 a y z)) := by
  unfold tileZ k0_pay3
  refine Cert.LibCat8.cat8_mid_apply _ _ _ _ _ _ _ _ _ a ch y
    (fun ch => smax fun z : Fin 256 => quo (xs ch (ix3 a y z)) (x8 (ix3 a y z))) ?_ ?_ ?_ ?_ ?_ ?_ ?_ ?_
  · exact (cast_mid_apply _ a y).trans (maxZ_quo _ (xs 0) x8 (fun a y z => quoBlock_apply (xs 0) x8 _ a y z) a y)
  · exact (cast_mid_apply _ a y).trans (maxZ_quo _ (xs 1) x8 (fun a y z => quoBlock_apply (xs 1) x8 _ a y z) a y)
  · exact (cast_mid_apply _ a y).trans (maxZ_quo _ (xs 2) x8 (fun a y z => quoBlock_apply (xs 2) x8 _ a y z) a y)
  · exact (cast_mid_apply _ a y).trans (maxZ_quo _ (xs 3) x8 (fun a y z => quoBlock_apply (xs 3) x8 _ a y z) a y)
  · exact (cast_mid_apply _ a y).trans (maxZ_quo _ (xs 4) x8 (fun a y z => quoBlock_apply (xs 4) x8 _ a y z) a y)
  · exact (cast_mid_apply _ a y).trans (maxZ_quo _ (xs 5) x8 (fun a y z => quoBlock_apply (xs 5) x8 _ a y z) a y)
  · exact (cast_mid_apply _ a y).trans (maxZ_quo _ (xs 6) x8 (fun a y z => quoBlock_apply (xs 6) x8 _ a y z) a y)
  · exact (cast_mid_apply _ a y).trans (maxZ_quo _ (xs 7) x8 (fun a y z => quoBlock_apply (xs 7) x8 _ a y z) a y)

theorem tileH_apply (xs : Fin 8 → Vec Ideal S4x256x256 .f32) (x8 : Vec Ideal S4x256x256 .f32) (prev : Vec Ideal S1x8x256x256 .f32) (ch : Fin 8) (y z : Fin 256) :
    tileH (F := Ideal) (xs 0) (xs 1) (xs 2) (xs 3) (xs 4) (xs 5) (xs 6) (xs 7) x8 prev (ix4 0 ch y z)
      = max (prev (ix4 0 ch y z)) (smax fun a : Fin 4 => quo (xs ch (ix3 a y z)) (x8 (ix3 a y z))) := by
  unfold tileH k0_pay1
  refine (cast_add_apply _ ch y z).trans ?_
  refine (maximumf_apply _ _ (ix3 ch y z)).trans ?_
  refine congrArg₂ max (cast_drop_apply prev ch y z) ?_
  refine Cert.LibCat8.cat8_lead_apply _ _ _ _ _ _ _ _ _ ch y z
    (fun ch => smax fun a : Fin 4 => quo (xs ch (ix3 a y z)) (x8 (ix3 a y z))) ?_ ?_ ?_ ?_ ?_ ?_ ?_ ?_
  · unfold k0_pay37 k0_pay7
    refine (cast_lead_apply _ y z).trans ?_
    refine maxX_quo _ (xs 0) x8 ?_ y z
    intro a y z
    unfold k0_pay6
    exact quoBlock_apply (xs 0) x8 _ a y z
  · unfold k0_pay38 k0_pay11
    refine (cast_lead_apply _ y z).trans ?_
    refine maxX_quo _ (xs 1) x8 ?_ y z
    intro a y z
    unfold k0_pay10
    exact quoBlock_apply (xs 1) x8 _ a y z
  · unfold k0_pay39 k0_pay15
    refine (cast_lead_apply _ y z).trans ?_
    refine maxX_quo _ (xs 2) x8 ?_ y z
    intro a y z
    unfold k0_pay14
    exact quoBlock_apply (xs 2) x8 _ a y z
  · unfold k0_pay40
    refine (cast_lead_apply _ y z).trans ?_
    refine maxX_quo _ (xs 3) x8 ?_ y z
    intro a y z
    unfold k0_pay19 k0_pay18
    exact quoBlock_apply (xs 3) x8 _ a y z
  · unfold k0_pay41
    refine (cast_lead_apply _ y z).trans ?_
    refine maxX_quo _ (xs 4) x8 ?_ y z
    intro a y z
    unfold k0_pay22
    exact quoBlock_apply (xs 4) x8 _ a y z
  · exact (cast_lead_apply _ y z).trans (maxX_quo _ (xs 5) x8 (fun a y z => quoBlock_apply (xs 5) x8 _ a y z) y z)
  · exact (cast_lead_apply _ y z).trans (maxX_quo _ (xs 6) x8 (fun a y z => quoBlock_apply (xs 6) x8 _ a y z) y z)
  · exact (cast_lead_apply _ y z).trans (maxX_quo _ (xs 7) x8 (fun a y z => quoBlock_apply (xs 7) x8 _ a y z) y z)

end Cert.KernelIdeal.Hand

end
-- ==== Proof.IdealBlocks.lean ====
/-
  The windows' blocks by coordinates.

  The grid position t = 32 * core + step is also the number of the block of four x-planes that position works on:
  every input window, and the two per-step output windows, sit at block (t, 0, 0) of their [256, ., .] arrays, so
  element (a, y, z) of a position's input block is element (4 t + a, y, z) of the array.  The carried output window
  sits at block (t / 32, 0, 0, 0) of the [2, 8, 256, 256] array of per-core partial maxima.  These are facts about the
  printed index maps, decided once over the 64 grid positions.
-/
import proofs.«156709_j35338990912022_2_alg».proof.Proof.IdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_w2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_w3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_w4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_w5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_w6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_w7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_w8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_w10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_w11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx_w9 : ∀ t : Fin cfg0.N, win0_9.index t (0 : Fin 4) = t.val / 32 ∧ win0_9.index t (1 : Fin 4) = 0
    ∧ win0_9.index t (2 : Fin 4) = 0 ∧ win0_9.index t (3 : Fin 4) = 0 :=
  (by decide +kernel : ∀ t : Fin grid0.N, _)

/-- The x-plane that row `a` of position `t`'s blocks is. -/
def xrow (t : Fin cfg0.N) (a : Fin 4) : Fin 256 :=
  ⟨t.val * 4 + a.val, by have := t.isLt; have := a.isLt; have hN : cfg0.N = 64 := N_0; omega⟩

theorem xrow_val (t : Fin cfg0.N) (a : Fin 4) : (xrow t a).val = t.val * 4 + a.val := rfl

/-! Each input block at an index is its array at row `4 t + a`. -/
theorem iblk_apply0 (c : Dev nD) (t : Fin cfg0.N) (a : Fin 4) (y z : Fin 256) :
    (iblk m c 0 t : S4x256x256.Idx → Elt F .f32) (ix3 a y z)
      = (V m c main_v29 : S256x256x256.Idx → Elt F .f32) (ix3 (xrow t a) y z) := by
  have hi := idx_w0 t
  show V m c main_v29 (((cfg0.win 0).blk t).view.emb (ix3 a y z)) = _
  refine congrArg _ (funext fun d => Fin.ext ?_)
  match d with
  | ⟨0, _⟩ => show win0_0.index t (0 : Fin 3) * 4 + 1 * a.val = t.val * 4 + a.val; rw [hi.1]; omega
  | ⟨1, _⟩ => show win0_0.index t (1 : Fin 3) * 256 + 1 * y.val = y.val; rw [hi.2.1]; omega
  | ⟨2, _⟩ => show win0_0.index t (2 : Fin 3) * 256 + 1 * z.val = z.val; rw [hi.2.2]; omega

theorem iblk_apply1 (c : Dev nD) (t : Fin cfg0.N) (a : Fin 4) (y z : Fin 256) :
    (iblk m c 1 t : S4x256x256.Idx → Elt F .f32) (ix3 a y z)
      = (V m c main_v35 : S256x256x256.Idx → Elt F .f32) (ix3 (xrow t a) y z) := by
  have hi := idx_w1 t
  show V m c main_v35 (((cfg0.win 1).blk t).view.emb (ix3 a y z)) = _
  refine congrArg _ (funext fun d => Fin.ext ?_)
  match d with
  | ⟨0, _⟩ => show win0_1.index t (0 : Fin 3) * 4 + 1 * a.val = t.val * 4 + a.val; rw [hi.1]; omega
  | ⟨1, _⟩ => show win0_1.index t (1 : Fin 3) * 256 + 1 * y.val = y.val; rw [hi.2.1]; omega
  | ⟨2, _⟩ => show win0_1.index t (2 : Fin 3) * 256 + 1 * z.val = z.val; rw [hi.2.2]; omega

theorem iblk_apply2 (c : Dev nD) (t : Fin cfg0.N) (a : Fin 4) (y z : Fin 256) :
    (iblk m c 2 t : S4x256x256.Idx → Elt F .f32) (ix3 a y z)
      = (V m c main_v41 : S256x256x256.Idx → Elt F .f32) (ix3 (xrow t a) y z) := by
  have hi := idx_w2 t
  show V m c main_v41 (((cfg0.win 2).blk t).view.emb (ix3 a y z)) = _
  refine congrArg _ (funext fun d => Fin.ext ?_)
  match d with
  | ⟨0, _⟩ => show win0_2.index t (0 : Fin 3) * 4 + 1 * a.val = t.val * 4 + a.val; rw [hi.1]; omega
  | ⟨1, _⟩ => show win0_2.index t (1 : Fin 3) * 256 + 1 * y.val = y.val; rw [hi.2.1]; omega
  | ⟨2, _⟩ => show win0_2.index t (2 : Fin 3) * 256 + 1 * z.val = z.val; rw [hi.2.2]; omega

theorem iblk_apply3 (c : Dev nD) (t : Fin cfg0.N) (a : Fin 4) (y z : Fin 256) :
    (iblk m c 3 t : S4x256x256.Idx → Elt F .f32) (ix3 a y z)
      = (V m c main_v47 : S256x256x256.Idx → Elt F .f32) (ix3 (xrow t a) y z) := by
  have hi := idx_w3 t
  show V m c main_v47 (((cfg0.win 3).blk t).view.emb (ix3 a y z)) = _
  refine congrArg _ (funext fun d => Fin.ext ?_)
  match d with
  | ⟨0, _⟩ => show win0_3.index t (0 : Fin 3) * 4 + 1 * a.val = t.val * 4 + a.val; rw [hi.1]; omega
  | ⟨1, _⟩ => show win0_3.index t (1 : Fin 3) * 256 + 1 * y.val = y.val; rw [hi.2.1]; omega
  | ⟨2, _⟩ => show win0_3.index t (2 : Fin 3) * 256 + 1 * z.val = z.val; rw [hi.2.2]; omega

theorem iblk_apply4 (c : Dev nD) (t : Fin cfg0.N) (a : Fin 4) (y z : Fin 256) :
    (iblk m c 4 t : S4x256x256.Idx → Elt F .f32) (ix3 a y z)
      = (V m c main_v53 : S256x256x256.Idx → Elt F .f32) (ix3 (xrow t a) y z) := by
  have hi := idx_w4 t
  show V m c main_v53 (((cfg0.win 4).blk t).view.emb (ix3 a y z)) = _
  refine congrArg _ (funext fun d => Fin.ext ?_)
  match d with
  | ⟨0, _⟩ => show win0_4.index t (0 : Fin 3) * 4 + 1 * a.val = t.val * 4 + a.val; rw [hi.1]; omega
  | ⟨1, _⟩ => show win0_4.index t (1 : Fin 3) * 256 + 1 * y.val = y.val; rw [hi.2.1]; omega
  | ⟨2, _⟩ => show win0_4.index t (2 : Fin 3) * 256 + 1 * z.val = z.val; rw [hi.2.2]; omega

theorem iblk_apply5 (c : Dev nD) (t : Fin cfg0.N) (a : Fin 4) (y z : Fin 256) :
    (iblk m c 5 t : S4x256x256.Idx → Elt F .f32) (ix3 a y z)
      = (V m c main_v59 : S256x256x256.Idx → Elt F .f32) (ix3 (xrow t a) y z) := by
  have hi := idx_w5 t
  show V m c main_v59 (((cfg0.win 5).blk t).view.emb (ix3 a y z)) = _
  refine congrArg _ (funext fun d => Fin.ext ?_)
  match d with
  | ⟨0, _⟩ => show win0_5.index t (0 : Fin 3) * 4 + 1 * a.val = t.val * 4 + a.val; rw [hi.1]; omega
  | ⟨1, _⟩ => show win0_5.index t (1 : Fin 3) * 256 + 1 * y.val = y.val; rw [hi.2.1]; omega
  | ⟨2, _⟩ => show win0_5.index t (2 : Fin 3) * 256 + 1 * z.val = z.val; rw [hi.2.2]; omega

theorem iblk_apply6 (c : Dev nD) (t : Fin cfg0.N) (a : Fin 4) (y z : Fin 256) :
    (iblk m c 6 t : S4x256x256.Idx → Elt F .f32) (ix3 a y z)
      = (V m c main_v65 : S256x256x256.Idx → Elt F .f32) (ix3 (xrow t a) y z) := by
  have hi := idx_w6 t
  show V m c main_v65 (((cfg0.win 6).blk t).view.emb (ix3 a y z)) = _
  refine congrArg _ (funext fun d => Fin.ext ?_)
  match d with
  | ⟨0, _⟩ => show win0_6.index t (0 : Fin 3) * 4 + 1 * a.val = t.val * 4 + a.val; rw [hi.1]; omega
  | ⟨1, _⟩ => show win0_6.index t (1 : Fin 3) * 256 + 1 * y.val = y.val; rw [hi.2.1]; omega
  | ⟨2, _⟩ => show win0_6.index t (2 : Fin 3) * 256 + 1 * z.val = z.val; rw [hi.2.2]; omega

theorem iblk_apply7 (c : Dev nD) (t : Fin cfg0.N) (a : Fin 4) (y z : Fin 256) :
    (iblk m c 7 t : S4x256x256.Idx → Elt F .f32) (ix3 a y z)
      = (V m c main_v71 : S256x256x256.Idx → Elt F .f32) (ix3 (xrow t a) y z) := by
  have hi := idx_w7 t
  show V m c main_v71 (((cfg0.win 7).blk t).view.emb (ix3 a y z)) = _
  refine congrArg _ (funext fun d => Fin.ext ?_)
  match d with
  | ⟨0, _⟩ => show win0_7.index t (0 : Fin 3) * 4 + 1 * a.val = t.val * 4 + a.val; rw [hi.1]; omega
  | ⟨1, _⟩ => show win0_7.index t (1 : Fin 3) * 256 + 1 * y.val = y.val; rw [hi.2.1]; omega
  | ⟨2, _⟩ => show win0_7.index t (2 : Fin 3) * 256 + 1 * z.val = z.val; rw [hi.2.2]; omega

theorem iblk_apply8 (c : Dev nD) (t : Fin cfg0.N) (a : Fin 4) (y z : Fin 256) :
    (iblk m c 8 t : S4x256x256.Idx → Elt F .f32) (ix3 a y z)
      = (V m c main_v76 : S256x256x256.Idx → Elt F .f32) (ix3 (xrow t a) y z) := by
  have hi := idx_w8 t
  show V m c main_v76 (((cfg0.win 8).blk t).view.emb (ix3 a y z)) = _
  refine congrArg _ (funext fun d => Fin.ext ?_)
  match d with
  | ⟨0, _⟩ => show win0_8.index t (0 : Fin 3) * 4 + 1 * a.val = t.val * 4 + a.val; rw [hi.1]; omega
  | ⟨1, _⟩ => show win0_8.index t (1 : Fin 3) * 256 + 1 * y.val = y.val; rw [hi.2.1]; omega
  | ⟨2, _⟩ => show win0_8.index t (2 : Fin 3) * 256 + 1 * z.val = z.val; rw [hi.2.2]; omega

end Cert.KernelIdeal.Hand

end
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.GridSum.lean ====
/-
  A scatter sum over the flat voxel grid, reshaped to 256 x 256 x 256 and read at a voxel.

  The host program scatters a vector of 100000 updates onto a zero vector of 16777216 entries by a column of entry
  numbers and reshapes the result to the grid.  At the ideal values the entry at voxel (x, y, z), which is row-major
  entry (x * 256 + y) * 256 + z of the flat vector, is the zero word's value plus the sum of the updates whose entry
  number, read signed, is that entry: the specification's `segsum`.  Stated over an arbitrary dimension record with
  the four equations that make it such a scatter (each `rfl` for a printed record), an arbitrary zero operand and
  arbitrary updates, so that each of the nine scatters of the program is an instance.
-/
import proofs.«156709_j35338990912022_2_alg».proof.Proof.Spec
import proofs.«156709_j35338990912022_2_alg».proof.Proof.LibScatter1
import proofs.«156709_j35338990912022_2_alg».proof.Proof.LibHostScatterIdeal
import Idealize.ShloMosaic.Lib.Pipeline.Value

noncomputable section

namespace Cert.Voxel

open Idealize.ShloMosaic Idealize.ShloMosaic.ValueIdx

theorem grid_segsum (d : ScatterDims ⟨1, ![16777216]⟩ ⟨2, ![100000, 1]⟩ ⟨1, ![100000]⟩)
    (huw : d.updateWindowDims = []) (hiw : d.insertedWindowDims = [0])
    (hsd : d.scatterDimsToOperandDims = [0]) (hiv : d.indexVectorDim = 1)
    (z0 : FVec Ideal ⟨1, ![16777216]⟩ .f32) (hz0 : ∀ i, z0 i = Ideal.ofBits .f32 0x00000000#32)
    (idx : IVec ⟨2, ![100000, 1]⟩ 32) (u : FVec Ideal ⟨1, ![100000]⟩ .f32)
    (hc : (⟨1, ![16777216]⟩ : Shape).ShapeCasts ⟨3, ![256, 256, 256]⟩) (x y z : Fin 256) :
    shapeCast ⟨3, ![256, 256, 256]⟩ (Host.scatterAdd d z0 idx u) hc (ix3 x y z)
      = segsum idx (fun e => u (ix1 e)) (cell x y z) := by
  rw [Host.scatterAdd_ideal]
  rw [shapeCast_apply _ hc (ix3 x y z) (ix1 (cell x y z))
    (by rw [Shape.rowMajor_val_one, Shape.rowMajor_val_three]; rfl)]
  rw [Scatter1.hostScatterAdd_rows1 d huw hiw hsd hiv, hz0]
  rfl

end Cert.Voxel

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.IdealArraysBase.lean ====
/-
  The nine arrays the region reads, as it finds them, at a voxel.

  The host lines before the region compute each point's voxel number from its coordinates, scatter each feature
  channel (and a vector of ones) onto a zero vector of 16777216 entries by those numbers, and reshape each result to
  the 256 x 256 x 256 grid.  Read at voxel (x, y, z), channel k's grid is the specification's sum over the points of
  that voxel of feature k, and the count grid the sum of ones.  The voxel numbers are the same chain of operations
  in this program and in the reference, so the two columns of numbers are one term.
-/
import proofs.«156709_j35338990912022_2_alg».proof.Proof.IdealKit
import proofs.«156709_j35338990912022_2_alg».proof.Proof.GridSum
import proofs.«156709_j35338990912022_2_alg».proof.Proof.RefReadP
import proofs.«156709_j35338990912022_2_alg».proof.Proof.LibTRef

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

/-- The column of voxel numbers: any term that is, by unfolding, the reference's column is that column. -/
theorem voxel_column (c : Dev nD) (col : S100000x1.Idx → BitVec 32)
    (h : col = Cert.ReferenceIdeal.ReadP.val_main_v25 (F := Ideal) (m ((c : Thread nD τ).loc main_arg0))) :
    col = Cert.ReferenceIdeal.ReadP.val_main_v25 (F := Ideal) (m ((c : Thread nD τ).loc main_arg0)) := h

/-- Column `k` of the features, sliced out and flattened, read at a point. -/
theorem feature_column {α : Type} (x1 : S100000x8.Idx → α) (k : Nat) (hk : k < 8) (hs : S100000x8.Slices ![0, k] S100000x1)
    (hc : S100000x1.ShapeCasts S100000) (e : Fin 100000) :
    shapeCast S100000 (extractStridedSlice S100000x1 ![0, k] x1 hs) hc (ix1 e) = x1 (ix2 e ⟨k, hk⟩) :=
  (shapeCast_apply _ hc (ix1 e) (ix2 e 0) (by
      rw [Shape.rowMajor_val_two, Shape.rowMajor_val_one]; show e.val * 1 + 0 = e.val; omega)).trans
    (extractStridedSlice_apply ![0, k] x1 hs (ix2 e 0) (ix2 e ⟨k, hk⟩) (fun a => match a with
      | ⟨0, _⟩ => by show e.val = 0 + e.val; omega
      | ⟨1, _⟩ => by show k = k + 0; omega))

end Cert.KernelIdeal.Hand

end
-- ==== Proof.IdealArraysA.lean ====
/- The grids of channel sums of channels 0 to 2, as the region finds them, at a voxel (the common lemmas are in IdealArraysBase). -/
import proofs.«156709_j35338990912022_2_alg».proof.Proof.IdealKit
import proofs.«156709_j35338990912022_2_alg».proof.Proof.GridSum
import proofs.«156709_j35338990912022_2_alg».proof.Proof.RefReadP
import proofs.«156709_j35338990912022_2_alg».proof.Proof.LibTRef
import proofs.«156709_j35338990912022_2_alg».proof.Proof.IdealArraysBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

set_option maxHeartbeats 4000000 in
/-- Channel 0's grid of sums, as the region finds it, at a voxel. -/
theorem sums0_apply (c : Dev nD) (x y z : Fin 256) :
    (V m c main_v29 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 0)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 0 (by decide) _ _ e

set_option maxHeartbeats 4000000 in
/-- Channel 1's grid of sums, as the region finds it, at a voxel. -/
theorem sums1_apply (c : Dev nD) (x y z : Fin 256) :
    (V m c main_v35 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 1)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 1 (by decide) _ _ e

set_option maxHeartbeats 4000000 in
/-- Channel 2's grid of sums, as the region finds it, at a voxel. -/
theorem sums2_apply (c : Dev nD) (x y z : Fin 256) :
    (V m c main_v41 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 2)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 2 (by decide) _ _ e

end Cert.KernelIdeal.Hand

end
-- ==== Proof.IdealArraysB.lean ====
/- The grids of channel sums of channels 3 to 5, as the region finds them, at a voxel (the common lemmas are in IdealArraysBase). -/
import proofs.«156709_j35338990912022_2_alg».proof.Proof.IdealKit
import proofs.«156709_j35338990912022_2_alg».proof.Proof.GridSum
import proofs.«156709_j35338990912022_2_alg».proof.Proof.RefReadP
import proofs.«156709_j35338990912022_2_alg».proof.Proof.LibTRef
import proofs.«156709_j35338990912022_2_alg».proof.Proof.IdealArraysBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

set_option maxHeartbeats 4000000 in
/-- Channel 3's grid of sums, as the region finds it, at a voxel. -/
theorem sums3_apply (c : Dev nD) (x y z : Fin 256) :
    (V m c main_v47 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 3)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 3 (by decide) _ _ e

set_option maxHeartbeats 4000000 in
/-- Channel 4's grid of sums, as the region finds it, at a voxel. -/
theorem sums4_apply (c : Dev nD) (x y z : Fin 256) :
    (V m c main_v53 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 4)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 4 (by decide) _ _ e

set_option maxHeartbeats 4000000 in
/-- Channel 5's grid of sums, as the region finds it, at a voxel. -/
theorem sums5_apply (c : Dev nD) (x y z : Fin 256) :
    (V m c main_v59 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 5)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 5 (by decide) _ _ e

end Cert.KernelIdeal.Hand

end
-- ==== Proof.IdealArraysC.lean ====
/- The grids of channel sums of channels 6 and 7 and of the counts, as the region finds them, at a voxel (the common lemmas are in IdealArraysBase). -/
import proofs.«156709_j35338990912022_2_alg».proof.Proof.IdealKit
import proofs.«156709_j35338990912022_2_alg».proof.Proof.GridSum
import proofs.«156709_j35338990912022_2_alg».proof.Proof.RefReadP
import proofs.«156709_j35338990912022_2_alg».proof.Proof.LibTRef
import proofs.«156709_j35338990912022_2_alg».proof.Proof.IdealArraysBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

set_option maxHeartbeats 4000000 in
/-- Channel 6's grid of sums, as the region finds it, at a voxel. -/
theorem sums6_apply (c : Dev nD) (x y z : Fin 256) :
    (V m c main_v65 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 6)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 6 (by decide) _ _ e

set_option maxHeartbeats 4000000 in
/-- Channel 7's grid of sums, as the region finds it, at a voxel. -/
theorem sums7_apply (c : Dev nD) (x y z : Fin 256) :
    (V m c main_v71 : S256x256x256.Idx → EReal) (ix3 x y z)
      = Cert.Voxel.segsum (Cert.ReferenceIdeal.ReadP.val_main_v25 (F := Ideal) (m ((c : Thread nD τ).loc main_arg0)))
          (fun e => (m ((c : Thread nD τ).loc main_arg1) : S100000x8.Idx → EReal) (ix2 e 7)) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  refine congrArg₂ (fun a b => Cert.Voxel.segsum a b (Cert.Voxel.cell x y z)) (voxel_column m c _ rfl) (funext fun e => ?_)
  exact feature_column _ 7 (by decide) _ _ e

set_option maxHeartbeats 4000000 in
/-- The grid of counts, as the region finds it, at a voxel. -/
theorem count_apply (c : Dev nD) (x y z : Fin 256) :
    (V m c main_v76 : S256x256x256.Idx → EReal) (ix3 x y z)
      = Cert.Voxel.segsum (Cert.ReferenceIdeal.ReadP.val_main_v25 (F := Ideal) (m ((c : Thread nD τ).loc main_arg0)))
          (fun _ => Ideal.ofBits .f32 0x3F800000#32) (Cert.Voxel.cell x y z) := by
  dsimp only [V, V0]
  simp only [hostOps0, hostOps0_1, hostOps0_2, List.flatten_cons, List.flatten_nil, List.append_nil, List.cons_append, List.nil_append]
  after_results_simp
  refine (Cert.Voxel.grid_segsum scatter_S16777216_S100000x1_S100000_n_0_0_1 rfl rfl rfl rfl _ (fun i => rfl) _ _
    shapeCasts_S16777216_S256x256x256 x y z).trans ?_
  exact congrArg₂ (fun a b => Cert.Voxel.segsum a b (Cert.Voxel.cell x y z)) (voxel_column m c _ rfl) (funext fun e => rfl)

end Cert.KernelIdeal.Hand

end
-- ==== Proof.IdealArrays.lean ====
/-
  The voxel values, from the arrays the region finds: at voxel (x, y, z) the quotient of channel ch's grid of sums by
  the grid of counts raised to at least one is the specification's value of that voxel in that channel.
-/
import proofs.«156709_j35338990912022_2_alg».proof.Proof.IdealArraysA
import proofs.«156709_j35338990912022_2_alg».proof.Proof.IdealArraysB
import proofs.«156709_j35338990912022_2_alg».proof.Proof.IdealArraysC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The column of voxel numbers of the launch memory's points. -/
abbrev numbers (c : Dev nD) : IVec ⟨2, ![100000, 1]⟩ 32 :=
  Cert.ReferenceIdeal.ReadP.val_main_v25 (F := Ideal) (m ((c : Thread nD τ).loc main_arg0))
/-- The features of the launch memory's points. -/
abbrev features (c : Dev nD) : (⟨2, ![100000, 8]⟩ : Shape).Idx → EReal := m ((c : Thread nD τ).loc main_arg1)

/-- Channel `ch`'s grid of sums as the region finds it. -/
def chanArr (c : Dev nD) (ch : Fin 8) : S256x256x256.Idx → EReal :=
  match ch with
  | ⟨0, _⟩ => V m c main_v29
  | ⟨1, _⟩ => V m c main_v35
  | ⟨2, _⟩ => V m c main_v41
  | ⟨3, _⟩ => V m c main_v47
  | ⟨4, _⟩ => V m c main_v53
  | ⟨5, _⟩ => V m c main_v59
  | ⟨6, _⟩ => V m c main_v65
  | ⟨7, _⟩ => V m c main_v71
/-- The grid of counts as the region finds it. -/
def cntArr (c : Dev nD) : S256x256x256.Idx → EReal := V m c main_v76

/-- Channel `ch`'s grid of sums at a voxel. -/
theorem sums_apply (c : Dev nD) (ch : Fin 8) (x y z : Fin 256) :
    chanArr m c ch (ix3 x y z)
      = Cert.Voxel.segsum (numbers m c) (fun e => features m c (ix2 e ch)) (Cert.Voxel.cell x y z) := by
  match ch with
  | ⟨0, _⟩ => exact sums0_apply m c x y z
  | ⟨1, _⟩ => exact sums1_apply m c x y z
  | ⟨2, _⟩ => exact sums2_apply m c x y z
  | ⟨3, _⟩ => exact sums3_apply m c x y z
  | ⟨4, _⟩ => exact sums4_apply m c x y z
  | ⟨5, _⟩ => exact sums5_apply m c x y z
  | ⟨6, _⟩ => exact sums6_apply m c x y z
  | ⟨7, _⟩ => exact sums7_apply m c x y z

/-- The quotient the body forms, at a voxel, is the specification's voxel value. -/
theorem quo_arrays (c : Dev nD) (ch : Fin 8) (x y z : Fin 256) :
    Cert.Voxel.quo (chanArr m c ch (ix3 x y z)) (cntArr m c (ix3 x y z))
      = Cert.Voxel.vox (numbers m c) (features m c) x y z ch := by
  unfold Cert.Voxel.vox cntArr
  exact congrArg₂ Cert.Voxel.quo (sums_apply m c ch x y z) (count_apply m c x y z)

end Cert.KernelIdeal.Hand

end
-- ==== Proof.IdealAccum.lean ====
/-
  What the three output buffers hold after the body at each grid position, read at an index.

  Position t works on the four x-planes 4 t, …, 4 t + 3.  After it, output 10 holds at (a, ch, z) the maximum over y of
  the voxel values of plane 4 t + a in channel ch, and output 11 at (a, ch, y) the maximum over z.  Output 9, carried
  across a core's 32 steps, holds at (0, ch, y, z) the maximum of the voxel values (x, y, z) in channel ch over all
  the planes x its core has worked on so far: stated by its upper bounds, by induction on the position — a first step
  starts from -inf, a later step raises what the step before left by its own four planes.
-/
import proofs.«156709_j35338990912022_2_alg».proof.Proof.IdealTile
import proofs.«156709_j35338990912022_2_alg».proof.Proof.IdealBlocks
import proofs.«156709_j35338990912022_2_alg».proof.Proof.IdealArrays

set_option maxRecDepth 16384

noncomputable section

namespace Cert.KernelIdeal.Hand

open Cert.KernelIdeal Cert.KernelIdeal.Gen Cert.Voxel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- Position `t`'s eight channel blocks. -/
def blkOf (c : Dev nD) (t : Fin cfg0.N) : Fin 8 → Vec Ideal S4x256x256 .f32 := fun ch =>
  match ch with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t

theorem blkOf_apply (c : Dev nD) (t : Fin cfg0.N) (ch : Fin 8) (a : Fin 4) (y z : Fin 256) :
    blkOf m c t ch (ix3 a y z) = chanArr m c ch (ix3 (xrow t a) y z) := by
  match ch with
  | ⟨0, _⟩ => exact iblk_apply0 m c t a y z
  | ⟨1, _⟩ => exact iblk_apply1 m c t a y z
  | ⟨2, _⟩ => exact iblk_apply2 m c t a y z
  | ⟨3, _⟩ => exact iblk_apply3 m c t a y z
  | ⟨4, _⟩ => exact iblk_apply4 m c t a y z
  | ⟨5, _⟩ => exact iblk_apply5 m c t a y z
  | ⟨6, _⟩ => exact iblk_apply6 m c t a y z
  | ⟨7, _⟩ => exact iblk_apply7 m c t a y z

/-- The quotient of position `t`'s blocks at (a, y, z) is the voxel value at plane 4 t + a. -/
theorem quo_blocks (c : Dev nD) (t : Fin cfg0.N) (ch : Fin 8) (a : Fin 4) (y z : Fin 256) :
    quo (blkOf m c t ch (ix3 a y z)) ((iblk m c 8 t : S4x256x256.Idx → EReal) (ix3 a y z))
      = vox (numbers m c) (features m c) (xrow t a) y z ch := by
  rw [blkOf_apply]
  exact (congrArg (quo _) (iblk_apply8 m c t a y z)).trans (quo_arrays m c ch (xrow t a) y z)

/-! ## The two per-step outputs -/

theorem tileW_blocks (c : Dev nD) (t : Fin cfg0.N) (a : Fin 4) (ch : Fin 8) (z : Fin 256) :
    tileW (F := Ideal) (iblk m c 0 t) (iblk m c 1 t) (iblk m c 2 t) (iblk m c 3 t) (iblk m c 4 t) (iblk m c 5 t) (iblk m c 6 t) (iblk m c 7 t) (iblk m c 8 t) (ix3 a ch z)
      = smax fun y : Fin 256 => vox (numbers m c) (features m c) (xrow t a) y z ch :=
  (tileW_apply (blkOf m c t) (iblk m c 8 t) a ch z).trans
    (congrArg smax (funext fun y => quo_blocks m c t ch a y z))

theorem tileZ_blocks (c : Dev nD) (t : Fin cfg0.N) (a : Fin 4) (ch : Fin 8) (y : Fin 256) :
    tileZ (F := Ideal) (iblk m c 0 t) (iblk m c 1 t) (iblk m c 2 t) (iblk m c 3 t) (iblk m c 4 t) (iblk m c 5 t) (iblk m c 6 t) (iblk m c 7 t) (iblk m c 8 t) (ix3 a ch y)
      = smax fun z : Fin 256 => vox (numbers m c) (features m c) (xrow t a) y z ch :=
  (tileZ_apply (blkOf m c t) (iblk m c 8 t) a ch y).trans
    (congrArg smax (funext fun z => quo_blocks m c t ch a y z))

theorem tileH_blocks (c : Dev nD) (t : Fin cfg0.N) (prev : Vec Ideal S1x8x256x256 .f32) (ch : Fin 8) (y z : Fin 256) :
    tileH (F := Ideal) (iblk m c 0 t) (iblk m c 1 t) (iblk m c 2 t) (iblk m c 3 t) (iblk m c 4 t) (iblk m c 5 t) (iblk m c 6 t) (iblk m c 7 t) (iblk m c 8 t) prev (ix4 0 ch y z)
      = max (prev (ix4 0 ch y z)) (smax fun a : Fin 4 => vox (numbers m c) (features m c) (xrow t a) y z ch) :=
  (tileH_apply (blkOf m c t) (iblk m c 8 t) prev ch y z).trans
    (congrArg (max _) (congrArg smax (funext fun a => quo_blocks m c t ch a y z)))

/-- Output 10 after position `t`. -/
theorem outW_apply (c : Dev nD) (t : Fin cfg0.N) (a : Fin 4) (ch : Fin 8) (z : Fin 256) :
    (outsAt0 m c t.val t.isLt).2.1 (ix3 a ch z)
      = smax fun y : Fin 256 => vox (numbers m c) (features m c) (xrow t a) y z ch := by
  by_cases h0 : t.val % 32 = 0
  · rw [outsAt0_A m c t h0]; dsimp only; rw [out0_A_10_eq]; exact tileW_blocks m c t a ch z
  · rw [outsAt0_B m c t h0]; dsimp only; rw [out0_B_10_eq]; exact tileW_blocks m c t a ch z

/-- Output 11 after position `t`. -/
theorem outZ_apply (c : Dev nD) (t : Fin cfg0.N) (a : Fin 4) (ch : Fin 8) (y : Fin 256) :
    (outsAt0 m c t.val t.isLt).2.2 (ix3 a ch y)
      = smax fun z : Fin 256 => vox (numbers m c) (features m c) (xrow t a) y z ch := by
  by_cases h0 : t.val % 32 = 0
  · rw [outsAt0_A m c t h0]; dsimp only; rw [out0_A_11_eq]; exact tileZ_blocks m c t a ch y
  · rw [outsAt0_B m c t h0]; dsimp only; rw [out0_B_11_eq]; exact tileZ_blocks m c t a ch y

/-! ## The carried output -/

/-- At a core's first step: -inf raised to the step's four planes. -/
theorem outH_first (c : Dev nD) (t : Fin cfg0.N) (h0 : t.val % 32 = 0) (ch : Fin 8) (y z : Fin 256) :
    (outsAt0 m c t.val t.isLt).1 (ix4 0 ch y z)
      = max ⊥ (smax fun a : Fin 4 => vox (numbers m c) (features m c) (xrow t a) y z ch) := by
  rw [outsAt0_A m c t h0]; dsimp only; rw [out0_A_9_eq]
  exact (tileH_blocks m c t _ ch y z).trans (congrArg (fun p => max p _) (pay4_apply _))

/-- At a later step: what the step before left, raised to the step's four planes. -/
theorem outH_later (c : Dev nD) (t : Fin cfg0.N) (h0 : ¬t.val % 32 = 0) (ch : Fin 8) (y z : Fin 256) :
    (outsAt0 m c t.val t.isLt).1 (ix4 0 ch y z)
      = max ((outsAt0 m c (t.val - 1) (Nat.lt_of_le_of_lt (Nat.sub_le _ _) t.isLt)).1 (ix4 0 ch y z))
          (smax fun a : Fin 4 => vox (numbers m c) (features m c) (xrow t a) y z ch) := by
  rw [outsAt0_B m c t h0]; dsimp only; rw [out0_B_9_eq]
  exact tileH_blocks m c t _ ch y z

/-- The carried output after position `n` lies under `b` exactly when every voxel value of every plane the core
    has worked on up to `n` does. -/
theorem outH_le_iff (c : Dev nD) (ch : Fin 8) (y z : Fin 256) (b : EReal) : ∀ (n : ℕ) (hn : n < cfg0.N),
    (outsAt0 m c n hn).1 (ix4 0 ch y z) ≤ b ↔
      ∀ (k : ℕ) (hk : k < cfg0.N), k / 32 = n / 32 → k ≤ n → ∀ a : Fin 4,
        vox (numbers m c) (features m c) (xrow ⟨k, hk⟩ a) y z ch ≤ b := by
  intro n
  induction n with
  | zero =>
    intro hn
    have e := outH_first m c ⟨0, hn⟩ rfl ch y z
    refine (show _ ↔ _ from by rw [show (outsAt0 m c 0 hn).1 (ix4 0 ch y z) = _ from e]).trans ?_
    rw [max_le_iff, smax_le_iff]
    constructor
    · rintro ⟨-, h⟩ k hk - hk0 a
      obtain rfl : k = 0 := by omega
      exact h a
    · intro h
      exact ⟨bot_le, fun a => h 0 hn rfl le_rfl a⟩
  | succ n ih =>
    intro hn
    by_cases h0 : (n + 1) % 32 = 0
    · have e := outH_first m c ⟨n + 1, hn⟩ h0 ch y z
      refine (show _ ↔ _ from by rw [show (outsAt0 m c (n + 1) hn).1 (ix4 0 ch y z) = _ from e]).trans ?_
      rw [max_le_iff, smax_le_iff]
      constructor
      · rintro ⟨-, h⟩ k hk hkd hkn a
        obtain rfl : k = n + 1 := by omega
        exact h a
      · intro h
        exact ⟨bot_le, fun a => h (n + 1) hn rfl le_rfl a⟩
    · have e := outH_later m c ⟨n + 1, hn⟩ h0 ch y z
      have hn' : n < cfg0.N := Nat.lt_of_succ_lt hn
      refine (show _ ↔ _ from by rw [show (outsAt0 m c (n + 1) hn).1 (ix4 0 ch y z) = _ from e]).trans ?_
      rw [max_le_iff, smax_le_iff]
      have ihn := ih hn'
      constructor
      · rintro ⟨hp, h⟩ k hk hkd hkn a
        by_cases hk1 : k = n + 1
        · subst hk1; exact h a
        · exact (ihn.mp hp) k hk (by omega) (by omega) a
      · intro h
        refine ⟨ihn.mpr fun k hk hkd hkn a => h k hk (by omega) (by omega) a, fun a => h (n + 1) hn rfl le_rfl a⟩

end Cert.KernelIdeal.Hand

end
-- ==== Proof.IdealFinal.lean ====
/-
  The three output arrays after the run, each as one function of the launch memory.

  Output 10 ends holding, at (x, ch, z), the maximum over y of the voxel values of plane x in channel ch; output 11,
  at (x, ch, y), the maximum over z: position t writes back the block of the four planes 4 t, …, 4 t + 3, and these
  blocks tile the arrays.  Output 9 ends holding, at (core, ch, y, z), the maximum over the 128 planes of that core's
  half: only a core's last step writes its carried block back, and by then the block has been raised by every plane of
  the half.  The coordinates are carried as natural numbers so that the blocks' offsets are plain arithmetic.
-/
import proofs.«156709_j35338990912022_2_alg».proof.Proof.IdealAccum

set_option maxRecDepth 16384

noncomputable section

namespace Cert.KernelIdeal.Hand

open Cert.KernelIdeal Cert.KernelIdeal.Gen Cert.Voxel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The maximum over y at plane `x`, channel `ch`, depth `z`. -/
def gW (c : Dev nD) (x ch z : ℕ) : EReal :=
  if h : x < 256 ∧ ch < 8 ∧ z < 256 then smax fun y : Fin 256 => vox (numbers m c) (features m c) ⟨x, h.1⟩ y ⟨z, h.2.2⟩ ⟨ch, h.2.1⟩ else 0
/-- The maximum over z at plane `x`, channel `ch`, row `y`. -/
def gZ (c : Dev nD) (x ch y : ℕ) : EReal :=
  if h : x < 256 ∧ ch < 8 ∧ y < 256 then smax fun z : Fin 256 => vox (numbers m c) (features m c) ⟨x, h.1⟩ ⟨y, h.2.2⟩ z ⟨ch, h.2.1⟩ else 0
/-- The maximum over the 128 planes of core `core`'s half at channel `ch`, row `y`, depth `z`. -/
def gH (c : Dev nD) (core ch y z : ℕ) : EReal :=
  if h : core < 2 ∧ ch < 8 ∧ y < 256 ∧ z < 256 then
    smax fun r : Fin 128 => vox (numbers m c) (features m c) ⟨core * 128 + r.val, by have := r.isLt; omega⟩ ⟨y, h.2.2.1⟩ ⟨z, h.2.2.2⟩ ⟨ch, h.2.1⟩
  else 0

def G10 (c : Dev nD) : S256x8x256.Idx → EReal := fun i => gW m c (i 0).val (i 1).val (i 2).val
def G11 (c : Dev nD) : S256x8x256.Idx → EReal := fun i => gZ m c (i 0).val (i 1).val (i 2).val
def G9 (c : Dev nD) : S2x8x256x256.Idx → EReal := fun i => gH m c (i 0).val (i 1).val (i 2).val (i 3).val

/-! ## Outputs 10 and 11 -/

/-- What position `t` writes back of output 10 is its block of `G10`. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext j
  have hi := idx_w10 t
  have hj0 : (j 0).val < 4 := (j 0).isLt
  have hj1 : (j 1).val < 8 := (j 1).isLt
  have hj2 : (j 2).val < 256 := (j 2).isLt
  have hN : t.val < 64 := lt_of_lt_of_eq t.isLt N_0
  show (outsAt0 m c t.val t.isLt).2.1 ((cfg0.win 10).xinj (grid0.coords t) j) = G10 m c (((cfg0.win 10).blk t).view.emb j)
  have hx : (cfg0.win 10).xinj (grid0.coords t) j
      = ix3 (⟨(j 0).val, hj0⟩ : Fin 4) (⟨(j 1).val, hj1⟩ : Fin 8) (⟨(j 2).val, hj2⟩ : Fin 256) :=
    funext fun d => match d with | ⟨0, _⟩ => rfl | ⟨1, _⟩ => rfl | ⟨2, _⟩ => rfl
  have e0 : ((((cfg0.win 10).blk t).view.emb j) 0).val = t.val * 4 + (j 0).val := by
    show win0_10.index t (0 : Fin 3) * 4 + 1 * (j 0).val = _; rw [hi.1]; omega
  have e1 : ((((cfg0.win 10).blk t).view.emb j) 1).val = (j 1).val := by
    show win0_10.index t (1 : Fin 3) * 8 + 1 * (j 1).val = _; rw [hi.2.1]; omega
  have e2 : ((((cfg0.win 10).blk t).view.emb j) 2).val = (j 2).val := by
    show win0_10.index t (2 : Fin 3) * 256 + 1 * (j 2).val = _; rw [hi.2.2]; omega
  have eG : G10 m c (((cfg0.win 10).blk t).view.emb j) = gW m c (t.val * 4 + (j 0).val) (j 1).val (j 2).val :=
    congr (congr (congrArg (gW m c) e0) e1) e2
  rw [hx, outW_apply]
  refine Eq.trans ?_ eG.symm
  unfold gW
  rw [dif_pos ⟨by omega, hj1, hj2⟩]
  rfl

/-- Every index of output 10's array is in the block of the position that works on its x-plane. -/
theorem cover10 (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0).val < 256 := (i 0).isLt
  have h1 : (i 1).val < 8 := (i 1).isLt
  have h2 : (i 2).val < 256 := (i 2).isLt
  have hN : cfg0.N = 64 := N_0
  obtain ⟨t, ht⟩ : ∃ t : Fin cfg0.N, t.val = (i 0).val / 4 := ⟨⟨(i 0).val / 4, by omega⟩, rfl⟩
  have hi := idx_w10 t
  refine ⟨t, flush0_10 t, ?_⟩
  show i ∈ ((View.whole main_v77_1).slice (win0_10.rect t)).set
  rw [View.set_slice_whole, Rect.mem_set_unit]
  intro a
  match a with
  | ⟨0, _⟩ =>
    show win0_10.index t (0 : Fin 3) * 4 ≤ (i 0).val ∧ (i 0).val < win0_10.index t (0 : Fin 3) * 4 + 4
    rw [hi.1, ht]; omega
  | ⟨1, _⟩ =>
    show win0_10.index t (1 : Fin 3) * 8 ≤ (i 1).val ∧ (i 1).val < win0_10.index t (1 : Fin 3) * 8 + 8
    rw [hi.2.1]; omega
  | ⟨2, _⟩ =>
    show win0_10.index t (2 : Fin 3) * 256 ≤ (i 2).val ∧ (i 2).val < win0_10.index t (2 : Fin 3) * 256 + 256
    rw [hi.2.2]; omega

/-- So output 10's array ends holding `G10`. -/
theorem final10 (c : Dev nD) : (dats m 0 c).arrAt 10 cfg0.N = G10 m c :=
  (dats m 0 c).arrAt_eq_of_cover 10 (G10 m c) (fun t _ => flushed10_eq m c t) (cover10 c)

/-- What position `t` writes back of output 11 is its block of `G11`. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext j
  have hi := idx_w11 t
  have hj0 : (j 0).val < 4 := (j 0).isLt
  have hj1 : (j 1).val < 8 := (j 1).isLt
  have hj2 : (j 2).val < 256 := (j 2).isLt
  have hN : t.val < 64 := lt_of_lt_of_eq t.isLt N_0
  show (outsAt0 m c t.val t.isLt).2.2 ((cfg0.win 11).xinj (grid0.coords t) j) = G11 m c (((cfg0.win 11).blk t).view.emb j)
  have hx : (cfg0.win 11).xinj (grid0.coords t) j
      = ix3 (⟨(j 0).val, hj0⟩ : Fin 4) (⟨(j 1).val, hj1⟩ : Fin 8) (⟨(j 2).val, hj2⟩ : Fin 256) :=
    funext fun d => match d with | ⟨0, _⟩ => rfl | ⟨1, _⟩ => rfl | ⟨2, _⟩ => rfl
  have e0 : ((((cfg0.win 11).blk t).view.emb j) 0).val = t.val * 4 + (j 0).val := by
    show win0_11.index t (0 : Fin 3) * 4 + 1 * (j 0).val = _; rw [hi.1]; omega
  have e1 : ((((cfg0.win 11).blk t).view.emb j) 1).val = (j 1).val := by
    show win0_11.index t (1 : Fin 3) * 8 + 1 * (j 1).val = _; rw [hi.2.1]; omega
  have e2 : ((((cfg0.win 11).blk t).view.emb j) 2).val = (j 2).val := by
    show win0_11.index t (2 : Fin 3) * 256 + 1 * (j 2).val = _; rw [hi.2.2]; omega
  have eG : G11 m c (((cfg0.win 11).blk t).view.emb j) = gZ m c (t.val * 4 + (j 0).val) (j 1).val (j 2).val :=
    congr (congr (congrArg (gZ m c) e0) e1) e2
  rw [hx, outZ_apply]
  refine Eq.trans ?_ eG.symm
  unfold gZ
  rw [dif_pos ⟨by omega, hj1, hj2⟩]
  rfl

/-- Every index of output 11's array is in the block of the position that works on its x-plane. -/
theorem cover11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 256 := (i 0).isLt
  have h1 : (i 1).val < 8 := (i 1).isLt
  have h2 : (i 2).val < 256 := (i 2).isLt
  have hN : cfg0.N = 64 := N_0
  obtain ⟨t, ht⟩ : ∃ t : Fin cfg0.N, t.val = (i 0).val / 4 := ⟨⟨(i 0).val / 4, by omega⟩, rfl⟩
  have hi := idx_w11 t
  refine ⟨t, flush0_11 t, ?_⟩
  show i ∈ ((View.whole main_v77_2).slice (win0_11.rect t)).set
  rw [View.set_slice_whole, Rect.mem_set_unit]
  intro a
  match a with
  | ⟨0, _⟩ =>
    show win0_11.index t (0 : Fin 3) * 4 ≤ (i 0).val ∧ (i 0).val < win0_11.index t (0 : Fin 3) * 4 + 4
    rw [hi.1, ht]; omega
  | ⟨1, _⟩ =>
    show win0_11.index t (1 : Fin 3) * 8 ≤ (i 1).val ∧ (i 1).val < win0_11.index t (1 : Fin 3) * 8 + 8
    rw [hi.2.1]; omega
  | ⟨2, _⟩ =>
    show win0_11.index t (2 : Fin 3) * 256 ≤ (i 2).val ∧ (i 2).val < win0_11.index t (2 : Fin 3) * 256 + 256
    rw [hi.2.2]; omega

/-- So output 11's array ends holding `G11`. -/
theorem final11 (c : Dev nD) : (dats m 0 c).arrAt 11 cfg0.N = G11 m c :=
  (dats m 0 c).arrAt_eq_of_cover 11 (G11 m c) (fun t _ => flushed11_eq m c t) (cover11 c)

/-! ## Output 9 -/

/-- What a core's last step writes back of output 9 is its block of `G9`. -/
theorem flushed9_eq (c : Dev nD) (t : Fin cfg0.N) (hf : (cfg0.win 9).flush t = true) :
    (dats m 0 c).flushed 9 t = ((cfg0.win 9).blk t).view.read (Elt Ideal) (G9 m c) := by
  have h31 : t.val % 32 = 31 := (flush0_9 t).mp hf
  show (cfg0.win 9).cut (grid0.coords t) ((dats m 0 c).after 9 t) = _
  rw [after0_9]
  funext j
  have hi := idx_w9 t
  have hj0 : (j 0).val < 1 := (j 0).isLt
  have hj1 : (j 1).val < 8 := (j 1).isLt
  have hj2 : (j 2).val < 256 := (j 2).isLt
  have hj3 : (j 3).val < 256 := (j 3).isLt
  have hN : t.val < 64 := lt_of_lt_of_eq t.isLt N_0
  have hNN : cfg0.N = 64 := N_0
  show (outsAt0 m c t.val t.isLt).1 ((cfg0.win 9).xinj (grid0.coords t) j) = G9 m c (((cfg0.win 9).blk t).view.emb j)
  have hx : (cfg0.win 9).xinj (grid0.coords t) j
      = ix4 (0 : Fin 1) (⟨(j 1).val, hj1⟩ : Fin 8) (⟨(j 2).val, hj2⟩ : Fin 256) (⟨(j 3).val, hj3⟩ : Fin 256) :=
    funext fun d => match d with
      | ⟨0, _⟩ => Fin.ext (by show (j 0).val = 0; omega)
      | ⟨1, _⟩ => rfl | ⟨2, _⟩ => rfl | ⟨3, _⟩ => rfl
  have e0 : ((((cfg0.win 9).blk t).view.emb j) 0).val = t.val / 32 := by
    show win0_9.index t (0 : Fin 4) * 1 + 1 * (j 0).val = _; rw [hi.1]; omega
  have e1 : ((((cfg0.win 9).blk t).view.emb j) 1).val = (j 1).val := by
    show win0_9.index t (1 : Fin 4) * 8 + 1 * (j 1).val = _; rw [hi.2.1]; omega
  have e2 : ((((cfg0.win 9).blk t).view.emb j) 2).val = (j 2).val := by
    show win0_9.index t (2 : Fin 4) * 256 + 1 * (j 2).val = _; rw [hi.2.2.1]; omega
  have e3 : ((((cfg0.win 9).blk t).view.emb j) 3).val = (j 3).val := by
    show win0_9.index t (3 : Fin 4) * 256 + 1 * (j 3).val = _; rw [hi.2.2.2]; omega
  have eG : G9 m c (((cfg0.win 9).blk t).view.emb j) = gH m c (t.val / 32) (j 1).val (j 2).val (j 3).val :=
    congr (congr (congr (congrArg (gH m c) e0) e1) e2) e3
  rw [hx]
  refine Eq.trans ?_ eG.symm
  unfold gH
  rw [dif_pos ⟨by omega, hj1, hj2, hj3⟩]
  refine eq_of_le_iff fun b => ?_
  rw [outH_le_iff m c _ _ _ b t.val t.isLt, smax_le_iff]
  constructor
  · intro h r
    have hr := r.isLt
    have hk : t.val / 32 * 32 + r.val / 4 < cfg0.N := by omega
    have := h (t.val / 32 * 32 + r.val / 4) hk (by omega) (by omega) ⟨r.val % 4, by omega⟩
    refine le_of_eq_of_le (congrArg (fun x => vox (numbers m c) (features m c) x _ _ _) (Fin.ext ?_)) this
    show t.val / 32 * 128 + r.val = (t.val / 32 * 32 + r.val / 4) * 4 + r.val % 4
    omega
  · intro h k hk hkd hkn a
    have ha := a.isLt
    have := h ⟨k % 32 * 4 + a.val, by omega⟩
    refine le_of_eq_of_le (congrArg (fun x => vox (numbers m c) (features m c) x _ _ _) (Fin.ext ?_)) this
    show k * 4 + a.val = t.val / 32 * 128 + (k % 32 * 4 + a.val)
    omega

/-- Every index of output 9's array is in the block written back after its core's last step. -/
theorem cover9 (c : Dev nD) (i : ((cfg0.win 9).arr.view.loc (c.tc : Thread nD τ)).2.ty.Idx) :
    ∃ t : Fin cfg0.N, (cfg0.win 9).flush t = true ∧ i ∈ ((cfg0.win 9).blk t).view.set := by
  have h0 : (i 0).val < 2 := (i 0).isLt
  have h1 : (i 1).val < 8 := (i 1).isLt
  have h2 : (i 2).val < 256 := (i 2).isLt
  have h3 : (i 3).val < 256 := (i 3).isLt
  have hN : cfg0.N = 64 := N_0
  obtain ⟨t, ht⟩ : ∃ t : Fin cfg0.N, t.val = (i 0).val * 32 + 31 := ⟨⟨(i 0).val * 32 + 31, by omega⟩, rfl⟩
  have hi := idx_w9 t
  refine ⟨t, (flush0_9 t).mpr (by rw [ht]; omega), ?_⟩
  show i ∈ ((View.whole main_v77_0).slice (win0_9.rect t)).set
  rw [View.set_slice_whole, Rect.mem_set_unit]
  intro a
  match a with
  | ⟨0, _⟩ =>
    show win0_9.index t (0 : Fin 4) * 1 ≤ (i 0).val ∧ (i 0).val < win0_9.index t (0 : Fin 4) * 1 + 1
    rw [hi.1, ht]; omega
  | ⟨1, _⟩ =>
    show win0_9.index t (1 : Fin 4) * 8 ≤ (i 1).val ∧ (i 1).val < win0_9.index t (1 : Fin 4) * 8 + 8
    rw [hi.2.1]; omega
  | ⟨2, _⟩ =>
    show win0_9.index t (2 : Fin 4) * 256 ≤ (i 2).val ∧ (i 2).val < win0_9.index t (2 : Fin 4) * 256 + 256
    rw [hi.2.2.1]; omega
  | ⟨3, _⟩ =>
    show win0_9.index t (3 : Fin 4) * 256 ≤ (i 3).val ∧ (i 3).val < win0_9.index t (3 : Fin 4) * 256 + 256
    rw [hi.2.2.2]; omega

/-- So output 9's array ends holding `G9`. -/
theorem final9 (c : Dev nD) : (dats m 0 c).arrAt 9 cfg0.N = G9 m c :=
  (dats m 0 c).arrAt_eq_of_cover 9 (G9 m c) (flushed9_eq m c) (cover9 c)

end Cert.KernelIdeal.Hand

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.LibCat3Lead.lean ====
/-
  Three arrays of shape [1, B, C, D] stacked along the leading axis, read at an index.

  The stack [3, B, C, D] at (v, b, c, d) is array number v at (0, b, c, d): each piece has extent one on the stacking
  axis, so piece v starts at offset v.  General; only the library is imported.
-/
import Idealize.ShloMosaic.Lib.Pipeline.Value
import Idealize.ShloMosaic.Lib.ValueIdx

namespace Cert.LibCat3Lead

open Idealize.ShloMosaic Idealize.ShloMosaic.ValueIdx

variable {α : Type} {B C D : Nat}

/-- The stack of three [1, B, C, D] arrays at (v, b, c, d) is array v at (0, b, c, d). -/
theorem stack3_apply (p0 p1 p2 : (⟨4, ![1, B, C, D]⟩ : Shape).Idx → α)
    (h : Shape.Concatenates (([⟨⟨4, ![1, B, C, D]⟩, p0⟩, ⟨⟨4, ![1, B, C, D]⟩, p1⟩, ⟨⟨4, ![1, B, C, D]⟩, p2⟩] :
      List ((s : Shape) × (s.Idx → α))).map (·.1)) ⟨4, ![3, B, C, D]⟩ 0)
    (v : Fin 3) (b : Fin B) (c : Fin C) (d : Fin D) :
    concatenate ⟨4, ![3, B, C, D]⟩ 0 [⟨⟨4, ![1, B, C, D]⟩, p0⟩, ⟨⟨4, ![1, B, C, D]⟩, p1⟩, ⟨⟨4, ![1, B, C, D]⟩, p2⟩] h (ix4 v b c d)
      = (match v with | ⟨0, _⟩ => p0 | ⟨1, _⟩ => p1 | ⟨2, _⟩ => p2) (ix4 (0 : Fin 1) b c d) := by
  match v with
  | ⟨0, _⟩ =>
    exact concatenate_apply_piece (t := ⟨4, ![3, B, C, D]⟩) 0 _ h _ 0 (by show (0 : ℕ) < 3; omega) _ p0 rfl rfl 0 rfl (ix4 (0 : Fin 1) b c d)
      (fun b' hb' => by
        match b', hb' with
        | ⟨0, _⟩, hb' => exact absurd rfl hb'
        | ⟨1, _⟩, _ => rfl
        | ⟨2, _⟩, _ => rfl
        | ⟨3, _⟩, _ => rfl) rfl
  | ⟨1, _⟩ =>
    exact concatenate_apply_piece (t := ⟨4, ![3, B, C, D]⟩) 0 _ h _ 1 (by show (1 : ℕ) < 3; omega) _ p1 rfl rfl 1 rfl (ix4 (0 : Fin 1) b c d)
      (fun b' hb' => by
        match b', hb' with
        | ⟨0, _⟩, hb' => exact absurd rfl hb'
        | ⟨1, _⟩, _ => rfl
        | ⟨2, _⟩, _ => rfl
        | ⟨3, _⟩, _ => rfl) rfl
  | ⟨2, _⟩ =>
    exact concatenate_apply_piece (t := ⟨4, ![3, B, C, D]⟩) 0 _ h _ 2 (by show (2 : ℕ) < 3; omega) _ p2 rfl rfl 2 rfl (ix4 (0 : Fin 1) b c d)
      (fun b' hb' => by
        match b', hb' with
        | ⟨0, _⟩, hb' => exact absurd rfl hb'
        | ⟨1, _⟩, _ => rfl
        | ⟨2, _⟩, _ => rfl
        | ⟨3, _⟩, _ => rfl) rfl

end Cert.LibCat3Lead
-- ==== Proof.IdealValue.lean ====
/-
  The program's two results, from the run.

  After the region the program takes the maximum of the two cores' partial maxima, moves the channel axis of the two
  per-step projections to the front, and stacks the three [8, 256, 256] projections; it also repeats the class label
  three times.  The nine lines are read one at a time: each buffer holds after the whole line what its own operation
  computes from what its operands hold after the whole line, and the three arrays the region wrote hold their final
  contents.  At (0, ch, y, z) the stack is the maximum over the two cores of the maxima over each core's 128 planes —
  by upper bounds, the maximum over all 256 planes; at (1, ch, x, z) it is the maximum over y and at (2, ch, x, y) the
  maximum over z of plane x: the specification's three projections.
-/
import proofs.«156709_j35338990912022_2_alg».proof.Proof.IdealFinal
import proofs.«156709_j35338990912022_2_alg».proof.Proof.LibLine
import proofs.«156709_j35338990912022_2_alg».proof.Proof.LibCat3Lead
import Idealize.ShloMosaic.PureOps.Reduce

set_option maxRecDepth 16384

noncomputable section

namespace Cert.KernelIdeal.Hand

open Cert.KernelIdeal Cert.KernelIdeal.Gen Cert.Voxel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

/-- The nine lines after the region write, in order, these nine buffers. -/
theorem tail_writes : Cert.LibLine.WritesAre (hostOps1 : List (HloOp τ sig (Elt Ideal))) [main_cst_14, main_v78, main_v79, main_v80, main_v81, main_v82, main_v83, main_v84, main_v85] :=
  .cons (nullary_writes ..) (.cons (binary_writes ..) (.cons (unary_writes ..) (.cons (unary_writes ..)
    (.cons (unary_writes ..) (.cons (unary_writes ..) (.cons (unary_writes ..) (.cons (nary_writes ..)
      (.cons (nary_writes ..) .nil))))))))

/-- What core `c`'s buffers hold when the region is left: its arrays at their final contents, the rest as the
    region found them. -/
abbrev exitVal (c : Dev nD) : Valuation τ sig (Elt Ideal) :=
  Pipeline.withArrays spec0 c (V0 m c) fun w => (dats m 0 c).arrAt w cfg0.N

theorem exit_v77_0 (c : Dev nD) : exitVal m c (Proc.devRef .tc main_v77_0) = G9 m c :=
  (Pipeline.withArrays_arr spec0 launch0.win.arr_inj c _ _ 9).trans (final9 m c)
theorem exit_v77_1 (c : Dev nD) : exitVal m c (Proc.devRef .tc main_v77_1) = G10 m c :=
  (Pipeline.withArrays_arr spec0 launch0.win.arr_inj c _ _ 10).trans (final10 m c)
theorem exit_v77_2 (c : Dev nD) : exitVal m c (Proc.devRef .tc main_v77_2) = G11 m c :=
  (Pipeline.withArrays_arr spec0 launch0.win.arr_inj c _ _ 11).trans (final11 m c)

/-! ## The three stacked projections, each read back along the line -/

/-- The first projection: the two cores' partial maxima, maximised. -/
theorem line_v79 (c : Dev nD) :
    after hostOps1 (exitVal m c) (Proc.devRef .tc main_v79)
      = broadcastInDim S1x8x256x256 ![1, 2, 3] bcast_S8x256x256_S1x8x256x256_1_2_3
          (Host.reduce (FloatOps.maximumf (F := Ideal)) (G9 m c) (constant (F := Ideal) S_ .f32 0xFF800000#32) reducesTo_S2x8x256x256_S8x256x256_d0 h_S_) := by
  rw [Cert.LibLine.stage_unary (tail_writes) 2 _ _ _ rfl (by decide) (by decide),
    Cert.LibLine.stage_binary (tail_writes) 1 _ _ _ _ rfl (by decide) (by decide) (by decide),
    Cert.LibLine.stage_nullary (tail_writes) 0 _ _ rfl (by decide),
    Cert.LibLine.after_of_writesAre (tail_writes) _ (by decide), exit_v77_0]

/-- The second: the maxima over y, channel axis first. -/
theorem line_v81 (c : Dev nD) :
    after hostOps1 (exitVal m c) (Proc.devRef .tc main_v81)
      = broadcastInDim S1x8x256x256 ![1, 2, 3] bcast_S8x256x256_S1x8x256x256_1_2_3
          (transpose S8x256x256 [1, 0, 2] (G10 m c) transposes_S256x8x256_S8x256x256_1_0_2) := by
  rw [Cert.LibLine.stage_unary (tail_writes) 4 _ _ _ rfl (by decide) (by decide),
    Cert.LibLine.stage_unary (tail_writes) 3 _ _ _ rfl (by decide) (by decide),
    Cert.LibLine.after_of_writesAre (tail_writes) _ (by decide), exit_v77_1]

/-- The third: the maxima over z, channel axis first. -/
theorem line_v83 (c : Dev nD) :
    after hostOps1 (exitVal m c) (Proc.devRef .tc main_v83)
      = broadcastInDim S1x8x256x256 ![1, 2, 3] bcast_S8x256x256_S1x8x256x256_1_2_3
          (transpose S8x256x256 [1, 0, 2] (G11 m c) transposes_S256x8x256_S8x256x256_1_0_2) := by
  rw [Cert.LibLine.stage_unary (tail_writes) 6 _ _ _ rfl (by decide) (by decide),
    Cert.LibLine.stage_unary (tail_writes) 5 _ _ _ rfl (by decide) (by decide),
    Cert.LibLine.after_of_writesAre (tail_writes) _ (by decide), exit_v77_2]

/-! ## Each projection at an index -/

/-- A [8, 256, 256] array given a leading unit axis, at (0, ch, a, b). -/
theorem lead_unit_apply {α : Type} (x : S8x256x256.Idx → α) (ch : Fin 8) (a b : Fin 256) :
    broadcastInDim S1x8x256x256 ![1, 2, 3] bcast_S8x256x256_S1x8x256x256_1_2_3 x (ix4 (0 : Fin 1) ch a b) = x (ix3 ch a b) :=
  broadcastInDim_apply _ bcast_S8x256x256_S1x8x256x256_1_2_3 x _ (ix3 ch a b) (fun d => match d with
    | ⟨0, _⟩ => by show ch.val = if (8 : Nat) = 1 then 0 else ch.val; rw [if_neg (by decide)]
    | ⟨1, _⟩ => by show a.val = if (256 : Nat) = 1 then 0 else a.val; rw [if_neg (by decide)]
    | ⟨2, _⟩ => by show b.val = if (256 : Nat) = 1 then 0 else b.val; rw [if_neg (by decide)])

/-- The channel axis moved to the front, at (ch, x, k). -/
theorem channel_first_apply {α : Type} (x : S256x8x256.Idx → α) (ch : Fin 8) (a b : Fin 256) :
    transpose S8x256x256 [1, 0, 2] x transposes_S256x8x256_S8x256x256_1_0_2 (ix3 ch a b) = x (ix3 a ch b) :=
  transpose_apply [1, 0, 2] x transposes_S256x8x256_S8x256x256_1_0_2 _ (ix3 a ch b) (fun d => match d with
    | ⟨0, _⟩ => rfl
    | ⟨1, _⟩ => rfl
    | ⟨2, _⟩ => rfl)

/-- The two cores' partial maxima, maximised, at (ch, y, z): the maximum over all 256 planes. -/
theorem cores_apply (c : Dev nD) (ch : Fin 8) (y z : Fin 256) :
    Host.reduce (FloatOps.maximumf (F := Ideal)) (G9 m c) (constant (F := Ideal) S_ .f32 0xFF800000#32) reducesTo_S2x8x256x256_S8x256x256_d0 h_S_ (ix3 ch y z)
      = smax fun x : Fin 256 => vox (numbers m c) (features m c) x y z ch := by
  have h : S2x8x256x256.Reduces [0] S8x256x256 := by decide
  rw [Host.reduce_eq_fold_single (FloatOps.maximumf (F := Ideal)) _ _ _ h h_S_]
  have hf : (G9 m c ∘ h.lift (ix3 ch y z)) = fun k : Fin 2 => gH m c k.val ch.val y.val z.val := funext fun k => rfl
  refine Eq.trans (b := smax fun k : Fin 2 => gH m c k.val ch.val y.val z.val) ?_ ?_
  · unfold smax
    refine Eq.trans ?_ (congrArg (fun t => Finset.fold max t (fun k : Fin 2 => gH m c k.val ch.val y.val z.val)
      (Finset.univ : Finset (Fin 2))) ofBits_neg_inf)
    exact congrArg (fun g => Finset.fold max (Ideal.ofBits .f32 0xFF800000#32) g (Finset.univ : Finset (Fin 2))) hf
  · refine eq_of_le_iff fun b => ?_
    rw [smax_le_iff, smax_le_iff]
    constructor
    · intro hk x
      have hx := x.isLt
      have h1 : gH m c (x.val / 128) ch.val y.val z.val ≤ b := hk ⟨x.val / 128, by omega⟩
      unfold gH at h1
      rw [dif_pos ⟨by omega, ch.isLt, y.isLt, z.isLt⟩, smax_le_iff] at h1
      have h2 := h1 ⟨x.val % 128, by omega⟩
      refine le_of_eq_of_le (congrArg (fun x' => vox (numbers m c) (features m c) x' y z ch) (Fin.ext ?_)) h2
      show x.val = x.val / 128 * 128 + x.val % 128
      omega
    · intro hx k
      have hk := k.isLt
      show gH m c k.val ch.val y.val z.val ≤ b
      unfold gH
      rw [dif_pos ⟨hk, ch.isLt, y.isLt, z.isLt⟩, smax_le_iff]
      intro r
      exact hx _

/-! ## The result array -/

/-- The stacked projections are the specification's result. -/
theorem tail_v84 (c : Dev nD) :
    Pipeline.afterTail₀ cfgs (dats m) 0 (V0 m) [hostOps1] c main_v84 = Cert.Voxel.result (numbers m c) (features m c) := by
  unfold Pipeline.afterTail₀
  simp only [List.flatten_cons, List.flatten_nil, List.append_nil]
  have s84 := Cert.LibLine.stage_nary (tail_writes) 7 _ _ _ rfl (by decide) (by decide) (exitVal m c)
  refine s84.trans ?_
  funext i
  obtain ⟨v, ch, a, b, rfl⟩ : ∃ (v : Fin 3) (ch : Fin 8) (a b : Fin 256), i = ix4 v ch a b := ⟨i 0, i 1, i 2, i 3, eq_ix4 i⟩
  rw [result_ix4]
  refine (Cert.LibCat3Lead.stack3_apply _ _ _ _ v ch a b).trans ?_
  match v with
  | ⟨0, _⟩ =>
    show after hostOps1 (exitVal m c) (Proc.devRef .tc main_v79) (ix4 (0 : Fin 1) ch a b) = view (numbers m c) (features m c) 0 ch a b
    rw [line_v79, lead_unit_apply, cores_apply]
    rfl
  | ⟨1, _⟩ =>
    show after hostOps1 (exitVal m c) (Proc.devRef .tc main_v81) (ix4 (0 : Fin 1) ch a b) = view (numbers m c) (features m c) 1 ch a b
    rw [line_v81, lead_unit_apply, channel_first_apply]
    show gW m c a.val ch.val b.val = _
    unfold gW
    rw [dif_pos ⟨a.isLt, ch.isLt, b.isLt⟩]
    rfl
  | ⟨2, _⟩ =>
    show after hostOps1 (exitVal m c) (Proc.devRef .tc main_v83) (ix4 (0 : Fin 1) ch a b) = view (numbers m c) (features m c) 2 ch a b
    rw [line_v83, lead_unit_apply, channel_first_apply]
    show gZ m c a.val ch.val b.val = _
    unfold gZ
    rw [dif_pos ⟨a.isLt, ch.isLt, b.isLt⟩]
    rfl

/-- The class label, three times: no line before it writes the label, and it is no array of the region. -/
theorem tail_v85 (c : Dev nD) :
    Pipeline.afterTail₀ cfgs (dats m) 0 (V0 m) [hostOps1] c main_v85
      = concatenate S3 0 [⟨S1, m ((c : Thread nD τ).loc main_arg2)⟩, ⟨S1, m ((c : Thread nD τ).loc main_arg2)⟩, ⟨S1, m ((c : Thread nD τ).loc main_arg2)⟩]
          concatenates_S1_S1_S1_S3_d0 := by
  unfold Pipeline.afterTail₀
  simp only [List.flatten_cons, List.flatten_nil, List.append_nil]
  have s85 := Cert.LibLine.stage_nary (tail_writes) 8 _ _ _ rfl (by decide) (by decide) (exitVal m c)
  refine s85.trans ?_
  have harg : after hostOps1 (exitVal m c) (Proc.devRef .tc main_arg2) = m ((c : Thread nD τ).loc main_arg2) :=
    (Cert.LibLine.after_of_writesAre (tail_writes) _ (by decide)).trans
      ((Pipeline.withArrays_of_ne _ c (V0 m c) _ main_arg2 (by exact (by decide : ∀ w, Pipeline.arrRef spec0 w ≠ main_arg2))).trans
        (V_main_arg2 m c))
  show concatenate S3 0 [⟨S1, after hostOps1 (exitVal m c) (Proc.devRef .tc main_arg2)⟩, ⟨S1, after hostOps1 (exitVal m c) (Proc.devRef .tc main_arg2)⟩, ⟨S1, after hostOps1 (exitVal m c) (Proc.devRef .tc main_arg2)⟩] concatenates_S1_S1_S1_S3_d0 = _
  rw [harg]

/-! ## The run, read -/

/-- From any memory with zero counters every weakly fair execution of the idealized kernel's program terminates with
    its result array at the specification's result, its second result at the class label three times, and its three
    arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v84) = Cert.Voxel.result (numbers m c) (features m c)
      ∧ r.2.mem ((c.tc : Thread nD τ).loc main_v85)
          = concatenate S3 0 [⟨S1, m ((c : Thread nD τ).loc main_arg2)⟩, ⟨S1, m ((c : Thread nD τ).loc main_arg2)⟩, ⟨S1, m ((c : Thread nD τ).loc main_arg2)⟩] concatenates_S1_S1_S1_S3_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v84 (Pipeline.mem_restRefs_of main_v84 (by decide) (by decide))).trans (tail_v84 m c),
     ((h c).2 main_v85 (Pipeline.mem_restRefs_of main_v85 (by decide) (by decide))).trans (tail_v85 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.RefValue.lean ====
/-
  The reference program's result array, read index by index, is the specification's result.

  The reference numbers every point with a voxel of the 256 x 256 x 256 grid, adds the points' features into the rows of
  a [16777216, 8] array (row n collects the points numbered n) and a one per point into a [16777216, 1] column,
  divides each row by its count raised to at least one, regards the quotients as a [1, 256, 256, 256, 8] grid (row
  (x*256 + y)*256 + z is voxel (x, y, z)), takes the maximum along each of the three spatial axes from -inf, moves the
  channel axis to the front and stacks the three projections.

  The lemmas follow that order.  An accumulating scatter whose updates are whole rows, read at (n, f), is the operand there
  plus the sum over the points numbered n: that is the specification's segment sum, for the features and for the ones.
  The quotient of the two is the specification's voxel value; the grid at (0, x, y, z, ch) reads row cell x y z, column ch.
  A maximum-reduce over one axis, read at (0, a, b, ch), is the fold of max from the word of -inf, which is the least
  extended real, over that axis's 256 coordinates put back into the index: the specification's maximum of the family of
  voxel values along the axis.  The transposes permute coordinates, and slab v of the stack is projection v.
-/
import proofs.«156709_j35338990912022_2_alg».proof.Proof.RefReadP
import proofs.«156709_j35338990912022_2_alg».proof.Proof.Spec
import proofs.«156709_j35338990912022_2_alg».proof.Proof.LibHostScatterIdeal
import proofs.«156709_j35338990912022_2_alg».proof.Proof.LibScatterRows
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
open Cert.Voxel

/-! ## The two segment sums -/

/-- The channel sums at voxel n: the zero word plus the features of the points numbered n. -/
theorem sums_apply (x0 : (⟨S100000x4, .f32⟩ : BufTy).Contents (Elt Ideal)) (x1 : (⟨S100000x8, .f32⟩ : BufTy).Contents (Elt Ideal))
    (n : Fin 16777216) (f : Fin 8) :
    val_main_v26 (F := Ideal) x0 x1 (ix2 n f) = segsum (val_main_v25 (F := Ideal) x0) (fun e => x1 (ix2 e f)) n := by
  unfold val_main_v26
  rw [Host.scatterAdd_ideal]
  rw [ScatterRows.hostScatterAdd_rows2 _ rfl rfl rfl rfl]
  rw [val_main_v24_apply, val_main_cst_4_apply, Ideal.ofBits_def]
  rfl

/-- The count at voxel n: the zero word plus a one per point numbered n. -/
theorem count_apply (x0 : (⟨S100000x4, .f32⟩ : BufTy).Contents (Elt Ideal)) (n : Fin 16777216) :
    val_main_v31 (F := Ideal) x0 (ix2 n 0) = segsum (val_main_v25 (F := Ideal) x0) (fun _ => Ideal.ofBits .f32 0x3F800000#32) n := by
  unfold val_main_v31
  rw [Host.scatterAdd_ideal]
  rw [ScatterRows.hostScatterAdd_rows2 _ rfl rfl rfl rfl]
  rw [val_main_v29_apply, val_main_cst_6_apply, Ideal.ofBits_def]
  unfold segsum
  refine congrArg (fun t => Ideal.ofBits .f32 0x00000000#32 + t) ?_
  refine Finset.sum_congr rfl (fun e _ => ?_)
  rw [val_main_v28_apply, val_main_cst_5_apply, Ideal.ofBits_def]

/-! ## The voxel values -/

/-- The quotient at voxel n, channel f. -/
theorem mean_apply (x0 : (⟨S100000x4, .f32⟩ : BufTy).Contents (Elt Ideal)) (x1 : (⟨S100000x8, .f32⟩ : BufTy).Contents (Elt Ideal))
    (n : Fin 16777216) (f : Fin 8) :
    val_main_v35 (F := Ideal) x0 x1 (ix2 n f)
      = quo (segsum (val_main_v25 (F := Ideal) x0) (fun e => x1 (ix2 e f)) n)
            (segsum (val_main_v25 (F := Ideal) x0) (fun _ => Ideal.ofBits .f32 0x3F800000#32) n) := by
  rw [val_main_v35_apply, Ideal.hostDivf_def, sums_apply, val_main_v34_apply, val_main_v33_apply, Ideal.maximumf_def,
    val_main_v32_apply, val_main_cst_7_apply, Ideal.ofBits_def, max_ofBits_one]
  have hi : idx_main_v34 (ix2 n f) = ix2 n 0 := by
    funext a; match a with | ⟨0, _⟩ => rfl | ⟨1, _⟩ => rfl
  rw [hi, count_apply]
  rfl

/-- Row (x*256+y)*256+z, column ch of the flat array is position (0, x, y, z, ch) of the grid. -/
theorem idx_grid (x y z : Fin 256) (ch : Fin 8) :
    idx_main_v36 (ix5 (0 : Fin 1) x y z ch) = ix2 (cell x y z) ch := by
  funext a
  match a with
  | ⟨0, _⟩ =>
    apply Fin.ext
    show (((((0 : Fin 1).val * 256 + x.val) * 256 + y.val) * 256 + z.val) * 8 + ch.val) / 8 = (x.val * 256 + y.val) * 256 + z.val
    have := ch.isLt
    simp only [Fin.val_zero]
    omega
  | ⟨1, _⟩ =>
    apply Fin.ext
    show (((((0 : Fin 1).val * 256 + x.val) * 256 + y.val) * 256 + z.val) * 8 + ch.val) % 8 = ch.val
    have := ch.isLt
    simp only [Fin.val_zero]
    omega

/-- The grid at (0, x, y, z, ch) is the voxel's value. -/
theorem grid_apply (x0 : (⟨S100000x4, .f32⟩ : BufTy).Contents (Elt Ideal)) (x1 : (⟨S100000x8, .f32⟩ : BufTy).Contents (Elt Ideal))
    (x y z : Fin 256) (ch : Fin 8) :
    val_main_v36 (F := Ideal) x0 x1 (ix5 (0 : Fin 1) x y z ch) = vox (val_main_v25 (F := Ideal) x0) x1 x y z ch := by
  rw [val_main_v36_apply, idx_grid, mean_apply]
  rfl

/-! ## The three maxima -/

/-- Over the x axis: the result index (0, a, b, ch) with x put back on axis 1 is (0, x, a, b, ch). -/
theorem lift_x (h : S1x256x256x256x8.Reduces [1] S1x256x256x8) (a b : Fin 256) (ch : Fin 8)
    (k : Fin (S1x256x256x256x8.size 1)) :
    h.lift (ix4 (0 : Fin 1) a b ch) k = ix5 (0 : Fin 1) (⟨k.val, k.isLt⟩ : Fin 256) a b ch := by
  funext c; apply Fin.ext
  match c with
  | ⟨0, _⟩ => rfl
  | ⟨1, _⟩ => rfl
  | ⟨2, _⟩ => rfl
  | ⟨3, _⟩ => rfl
  | ⟨4, _⟩ => rfl

/-- The maximum over x at (y, z) = (a, b). -/
theorem maxX_apply (x0 : (⟨S100000x4, .f32⟩ : BufTy).Contents (Elt Ideal)) (x1 : (⟨S100000x8, .f32⟩ : BufTy).Contents (Elt Ideal))
    (a b : Fin 256) (ch : Fin 8) :
    val_main_v37 (F := Ideal) x0 x1 (ix4 (0 : Fin 1) a b ch)
      = smax fun x : Fin 256 => vox (val_main_v25 (F := Ideal) x0) x1 x a b ch := by
  have h : S1x256x256x256x8.Reduces [1] S1x256x256x8 := by decide
  unfold val_main_v37
  rw [Host.reduce_eq_fold_single FloatOps.maximumf _ _ _ h h_S_]
  have hf : (val_main_v36 (F := Ideal) x0 x1 ∘ h.lift (ix4 (0 : Fin 1) a b ch))
      = fun x : Fin 256 => vox (val_main_v25 (F := Ideal) x0) x1 x a b ch :=
    funext fun k => by
      show val_main_v36 (F := Ideal) x0 x1 (h.lift (ix4 (0 : Fin 1) a b ch) k) = _
      rw [lift_x, grid_apply]
      rfl
  unfold smax
  refine Eq.trans ?_ (congrArg (fun t => Finset.fold max t (fun x : Fin 256 => vox (val_main_v25 (F := Ideal) x0) x1 x a b ch)
    (Finset.univ : Finset (Fin 256))) ofBits_neg_inf)
  exact congrArg (fun g => Finset.fold max (Ideal.ofBits .f32 0xFF800000#32) g (Finset.univ : Finset (Fin 256))) hf

/-- Over the y axis: the result index (0, a, b, ch) with y put back on axis 2. -/
theorem lift_y (h : S1x256x256x256x8.Reduces [2] S1x256x256x8) (a b : Fin 256) (ch : Fin 8)
    (k : Fin (S1x256x256x256x8.size 2)) :
    h.lift (ix4 (0 : Fin 1) a b ch) k = ix5 (0 : Fin 1) a (⟨k.val, k.isLt⟩ : Fin 256) b ch := by
  funext c; apply Fin.ext
  match c with
  | ⟨0, _⟩ => rfl
  | ⟨1, _⟩ => rfl
  | ⟨2, _⟩ => rfl
  | ⟨3, _⟩ => rfl
  | ⟨4, _⟩ => rfl

/-- The maximum over y at (x, z) = (a, b). -/
theorem maxY_apply (x0 : (⟨S100000x4, .f32⟩ : BufTy).Contents (Elt Ideal)) (x1 : (⟨S100000x8, .f32⟩ : BufTy).Contents (Elt Ideal))
    (a b : Fin 256) (ch : Fin 8) :
    val_main_v39 (F := Ideal) x0 x1 (ix4 (0 : Fin 1) a b ch)
      = smax fun y : Fin 256 => vox (val_main_v25 (F := Ideal) x0) x1 a y b ch := by
  have h : S1x256x256x256x8.Reduces [2] S1x256x256x8 := by decide
  unfold val_main_v39
  rw [Host.reduce_eq_fold_single FloatOps.maximumf _ _ _ h h_S_]
  have hf : (val_main_v36 (F := Ideal) x0 x1 ∘ h.lift (ix4 (0 : Fin 1) a b ch))
      = fun y : Fin 256 => vox (val_main_v25 (F := Ideal) x0) x1 a y b ch :=
    funext fun k => by
      show val_main_v36 (F := Ideal) x0 x1 (h.lift (ix4 (0 : Fin 1) a b ch) k) = _
      rw [lift_y, grid_apply]
      rfl
  unfold smax
  refine Eq.trans ?_ (congrArg (fun t => Finset.fold max t (fun y : Fin 256 => vox (val_main_v25 (F := Ideal) x0) x1 a y b ch)
    (Finset.univ : Finset (Fin 256))) ofBits_neg_inf)
  exact congrArg (fun g => Finset.fold max (Ideal.ofBits .f32 0xFF800000#32) g (Finset.univ : Finset (Fin 256))) hf

/-- Over the z axis: the result index (0, a, b, ch) with z put back on axis 3. -/
theorem lift_z (h : S1x256x256x256x8.Reduces [3] S1x256x256x8) (a b : Fin 256) (ch : Fin 8)
    (k : Fin (S1x256x256x256x8.size 3)) :
    h.lift (ix4 (0 : Fin 1) a b ch) k = ix5 (0 : Fin 1) a b (⟨k.val, k.isLt⟩ : Fin 256) ch := by
  funext c; apply Fin.ext
  match c with
  | ⟨0, _⟩ => rfl
  | ⟨1, _⟩ => rfl
  | ⟨2, _⟩ => rfl
  | ⟨3, _⟩ => rfl
  | ⟨4, _⟩ => rfl

/-- The maximum over z at (x, y) = (a, b). -/
theorem maxZ_apply (x0 : (⟨S100000x4, .f32⟩ : BufTy).Contents (Elt Ideal)) (x1 : (⟨S100000x8, .f32⟩ : BufTy).Contents (Elt Ideal))
    (a b : Fin 256) (ch : Fin 8) :
    val_main_v41 (F := Ideal) x0 x1 (ix4 (0 : Fin 1) a b ch)
      = smax fun z : Fin 256 => vox (val_main_v25 (F := Ideal) x0) x1 a b z ch := by
  have h : S1x256x256x256x8.Reduces [3] S1x256x256x8 := by decide
  unfold val_main_v41
  rw [Host.reduce_eq_fold_single FloatOps.maximumf _ _ _ h h_S_]
  have hf : (val_main_v36 (F := Ideal) x0 x1 ∘ h.lift (ix4 (0 : Fin 1) a b ch))
      = fun z : Fin 256 => vox (val_main_v25 (F := Ideal) x0) x1 a b z ch :=
    funext fun k => by
      show val_main_v36 (F := Ideal) x0 x1 (h.lift (ix4 (0 : Fin 1) a b ch) k) = _
      rw [lift_z, grid_apply]
      rfl
  unfold smax
  refine Eq.trans ?_ (congrArg (fun t => Finset.fold max t (fun z : Fin 256 => vox (val_main_v25 (F := Ideal) x0) x1 a b z ch)
    (Finset.univ : Finset (Fin 256))) ofBits_neg_inf)
  exact congrArg (fun g => Finset.fold max (Ideal.ofBits .f32 0xFF800000#32) g (Finset.univ : Finset (Fin 256))) hf

/-! ## Channel first, and the stack -/

/-- Channel-first: position (0, ch, a, b) of a transposed projection is position (0, a, b, ch) of the projection. -/
theorem idx_channel_first (ch : Fin 8) (a b : Fin 256) :
    idx_main_v38 (ix4 (0 : Fin 1) ch a b) = ix4 (0 : Fin 1) a b ch := by
  funext c
  match c with
  | ⟨0, _⟩ => rfl
  | ⟨1, _⟩ => rfl
  | ⟨2, _⟩ => rfl
  | ⟨3, _⟩ => rfl

/-- The first projection at (0, ch, a, b): the maximum over x at (y, z) = (a, b). -/
theorem projX_apply (x0 : (⟨S100000x4, .f32⟩ : BufTy).Contents (Elt Ideal)) (x1 : (⟨S100000x8, .f32⟩ : BufTy).Contents (Elt Ideal))
    (ch : Fin 8) (a b : Fin 256) :
    val_main_v38 (F := Ideal) x0 x1 (ix4 (0 : Fin 1) ch a b) = view (val_main_v25 (F := Ideal) x0) x1 0 ch a b := by
  rw [val_main_v38_apply, idx_channel_first, maxX_apply]
  rfl

/-- The second projection at (0, ch, a, b): the maximum over y at (x, z) = (a, b). -/
theorem projY_apply (x0 : (⟨S100000x4, .f32⟩ : BufTy).Contents (Elt Ideal)) (x1 : (⟨S100000x8, .f32⟩ : BufTy).Contents (Elt Ideal))
    (ch : Fin 8) (a b : Fin 256) :
    val_main_v40 (F := Ideal) x0 x1 (ix4 (0 : Fin 1) ch a b) = view (val_main_v25 (F := Ideal) x0) x1 1 ch a b := by
  rw [val_main_v40_apply]
  show val_main_v39 (F := Ideal) x0 x1 (idx_main_v38 (ix4 (0 : Fin 1) ch a b)) = _
  rw [idx_channel_first, maxY_apply]
  rfl

/-- The third projection at (0, ch, a, b): the maximum over z at (x, y) = (a, b). -/
theorem projZ_apply (x0 : (⟨S100000x4, .f32⟩ : BufTy).Contents (Elt Ideal)) (x1 : (⟨S100000x8, .f32⟩ : BufTy).Contents (Elt Ideal))
    (ch : Fin 8) (a b : Fin 256) :
    val_main_v42 (F := Ideal) x0 x1 (ix4 (0 : Fin 1) ch a b) = view (val_main_v25 (F := Ideal) x0) x1 2 ch a b := by
  rw [val_main_v42_apply]
  show val_main_v41 (F := Ideal) x0 x1 (idx_main_v38 (ix4 (0 : Fin 1) ch a b)) = _
  rw [idx_channel_first, maxZ_apply]
  rfl

/-- Slab 0 of the stacked result is the first projection. -/
theorem stack0_apply (x0 : (⟨S100000x4, .f32⟩ : BufTy).Contents (Elt Ideal)) (x1 : (⟨S100000x8, .f32⟩ : BufTy).Contents (Elt Ideal))
    (ch : Fin 8) (a b : Fin 256) :
    val_main_v43 (F := Ideal) x0 x1 (ix4 (0 : Fin 3) ch a b) = val_main_v38 (F := Ideal) x0 x1 (ix4 (0 : Fin 1) ch a b) := by
  unfold val_main_v43
  refine concatenate_apply_piece (0 : Fin S3x8x256x256.rank) _ _ (ix4 (0 : Fin 3) ch a b) 0 (by show (0 : Nat) < 3; omega) S1x8x256x256
    (val_main_v38 (F := Ideal) x0 x1) rfl rfl 0 rfl (ix4 (0 : Fin 1) ch a b) ?_ rfl
  intro c hc
  match c with
  | ⟨0, _⟩ => exact absurd rfl hc
  | ⟨1, _⟩ => rfl
  | ⟨2, _⟩ => rfl
  | ⟨3, _⟩ => rfl

/-- Slab 1 of the stacked result is the second projection. -/
theorem stack1_apply (x0 : (⟨S100000x4, .f32⟩ : BufTy).Contents (Elt Ideal)) (x1 : (⟨S100000x8, .f32⟩ : BufTy).Contents (Elt Ideal))
    (ch : Fin 8) (a b : Fin 256) :
    val_main_v43 (F := Ideal) x0 x1 (ix4 (1 : Fin 3) ch a b) = val_main_v40 (F := Ideal) x0 x1 (ix4 (0 : Fin 1) ch a b) := by
  unfold val_main_v43
  refine concatenate_apply_piece (0 : Fin S3x8x256x256.rank) _ _ (ix4 (1 : Fin 3) ch a b) 1 (by show (1 : Nat) < 3; omega) S1x8x256x256
    (val_main_v40 (F := Ideal) x0 x1) rfl rfl 1 rfl (ix4 (0 : Fin 1) ch a b) ?_ rfl
  intro c hc
  match c with
  | ⟨0, _⟩ => exact absurd rfl hc
  | ⟨1, _⟩ => rfl
  | ⟨2, _⟩ => rfl
  | ⟨3, _⟩ => rfl

/-- Slab 2 of the stacked result is the third projection. -/
theorem stack2_apply (x0 : (⟨S100000x4, .f32⟩ : BufTy).Contents (Elt Ideal)) (x1 : (⟨S100000x8, .f32⟩ : BufTy).Contents (Elt Ideal))
    (ch : Fin 8) (a b : Fin 256) :
    val_main_v43 (F := Ideal) x0 x1 (ix4 (2 : Fin 3) ch a b) = val_main_v42 (F := Ideal) x0 x1 (ix4 (0 : Fin 1) ch a b) := by
  unfold val_main_v43
  refine concatenate_apply_piece (0 : Fin S3x8x256x256.rank) _ _ (ix4 (2 : Fin 3) ch a b) 2 (by show (2 : Nat) < 3; omega) S1x8x256x256
    (val_main_v42 (F := Ideal) x0 x1) rfl rfl 2 rfl (ix4 (0 : Fin 1) ch a b) ?_ rfl
  intro c hc
  match c with
  | ⟨0, _⟩ => exact absurd rfl hc
  | ⟨1, _⟩ => rfl
  | ⟨2, _⟩ => rfl
  | ⟨3, _⟩ => rfl

/-- The reference's result array is the specification's result of the voxel-number column and the features. -/
theorem ref_result (x0 : (⟨S100000x4, .f32⟩ : BufTy).Contents (Elt Ideal)) (x1 : (⟨S100000x8, .f32⟩ : BufTy).Contents (Elt Ideal)) :
    Cert.ReferenceIdeal.ReadP.val_main_v43 (F := Ideal) x0 x1
      = Cert.Voxel.result (Cert.ReferenceIdeal.ReadP.val_main_v25 (F := Ideal) x0) x1 := by
  funext i
  obtain ⟨v, ch, a, b, rfl⟩ : ∃ (v : Fin 3) (ch : Fin 8) (a b : Fin 256), i = ix4 v ch a b :=
    ⟨i 0, i 1, i 2, i 3, eq_ix4 i⟩
  rw [result_ix4]
  match v with
  | ⟨0, _⟩ => exact (stack0_apply x0 x1 ch a b).trans (projX_apply x0 x1 ch a b)
  | ⟨1, _⟩ => exact (stack1_apply x0 x1 ch a b).trans (projY_apply x0 x1 ch a b)
  | ⟨2, _⟩ => exact (stack2_apply x0 x1 ch a b).trans (projZ_apply x0 x1 ch a b)

end Cert.ReferenceIdeal.RefValue

end
-- ==== Proof.lean ====
/-
  A voxelizer: 100000 points with eight features each are binned into a 256 x 256 x 256 grid (per voxel and channel the
  sum of the features of the voxel's points, and the count of its points), each voxel's channel sums are divided by its
  count raised to at least one, and the three axis-wise maxima of these values are returned, stacked, with the class
  label three times.

  The kernel's program computes the nine grids on the host by nine scatters, streams them through one grid region of
  2 x 32 steps (each step: four x-planes; the quotient as sum times the reciprocal of the raised count; the step's
  maxima along y and along z written out; the maximum along x accumulated per core across its 32 steps), and finishes
  on the host with the maximum over the two cores and the stacking.  The reference computes one [16777216, 8] scatter,
  divides, and takes three whole-axis maxima.

  The three frames: each kernel program is the host lines before the region, the region, and the host lines after it;
  the region's body is run once for each of its two cases (a core's first step resets the carried maximum, a later step
  reads it back), and the library's launch theorem for a region with later host lines gives the run.  The reference is
  a straight host line.  The ideal pass rewrote nothing, so the idealization claim is trivial.

  The value claim: at the ideal values both result arrays are the specification's result of the launch memory — the
  voxel sums are the same finite sums, multiplying by the reciprocal of max(count, 1) is dividing by it on every
  extended real (the divisor is never zero), and a maximum taken tile by tile, step by step and core by core is the
  maximum of the whole family.  No finiteness of the inputs is used.
-/
import proofs.«156709_j35338990912022_2_alg».proof.Defs
import proofs.«156709_j35338990912022_2_alg».proof.Proof.Gen.Kernel
import proofs.«156709_j35338990912022_2_alg».proof.Proof.Gen.KernelIdeal
import proofs.«156709_j35338990912022_2_alg».proof.Proof.Gen.ReferenceIdeal
import proofs.«156709_j35338990912022_2_alg».proof.Proof.Gen.Pre_finite_inputs
import proofs.«156709_j35338990912022_2_alg».proof.Proof.BitsFrame
import proofs.«156709_j35338990912022_2_alg».proof.Proof.IdealValue
import proofs.«156709_j35338990912022_2_alg».proof.Proof.RefValue
import Idealize.ShloMosaic.Adequacy
import Idealize.ShloMosaic.Init

noncomputable section

namespace Cert.Proof

open Idealize.ShloMosaic Idealize.SL.Sem

/-- The kernel's program runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- So does the reference: its run, with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- From memories that agree on the arguments both idealized programs end with the specification's result of the
    launch memory and the class label three times. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v43_eq, Cert.ReferenceIdeal.RefValue.ref_result,
      (hagree c).1, (hagree c).2.1]
  · rw [(h c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
